-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S8192x128 .f32) (main_arg1 : FVec F S8192x8192 .f32) (main_arg2 : FVec F S128x128 .f32) (main_arg3 : FVec F S128 .f32) (main_arg4 : FVec F S8192 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S8192 : Shape := ⟨1, ![8192]⟩
abbrev S8192x1 : Shape := ⟨2, ![8192, 1]⟩
abbrev S1x128 : Shape := ⟨2, ![1, 128]⟩
abbrev S512x2048 : Shape := ⟨2, ![512, 2048]⟩
abbrev S2048x128 : Shape := ⟨2, ![2048, 128]⟩
abbrev S512x128 : Shape := ⟨2, ![512, 128]⟩
abbrev S512x1 : Shape := ⟨2, ![512, 1]⟩
abbrev S512 : Shape := ⟨1, ![512]⟩

abbrev nBuf : Space → Nat
  | .hbm => 8
  | .vmem => 14
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S8192, .f32⟩
  | .hbm, ⟨5, _⟩ => ⟨S8192x1, .f32⟩
  | .hbm, ⟨6, _⟩ => ⟨S1x128, .f32⟩
  | .hbm, ⟨7, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S2048x128, .f32⟩
  | .local _ .vmem, ⟨3, _⟩ => ⟨S2048x128, .f32⟩
  | .local _ .vmem, ⟨4, _⟩ => ⟨S512x128, .f32⟩
  | .local _ .vmem, ⟨5, _⟩ => ⟨S512x128, .f32⟩
  | .local _ .vmem, ⟨6, _⟩ => ⟨S512x1, .f32⟩
  | .local _ .vmem, ⟨7, _⟩ => ⟨S512x1, .f32⟩
  | .local _ .vmem, ⟨8, _⟩ => ⟨S128x128, .f32⟩
  | .local _ .vmem, ⟨9, _⟩ => ⟨S1x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_13 : BitVec 32 := 0#32
  let v22 : BitVec 1 := Scalar.cmpi .ne v21 c0_i32_13
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S8192_S8192x1 : S8192.ShapeCasts S8192x1
  shapeCasts_S128_S1x128 : S128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  reduces_S512x2048_S512 : S512x2048.Reduces [1] S512
  shapeCasts_S512_S512x1 : S512.ShapeCasts S512x1
  broadcasts_S512x1_S512x128 : S512x1.Broadcasts S512x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  dot_S512x2048_S2048x128_S512x128_1_0_0_1_n_n_wf : DotDims.WF S512x2048 S2048x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x8192.size a
  hwx0_0 : ∀ i : grid0.Coords, EltTy.bits .f32 = 32 ∨ (Rect.block (s := S8192x8192) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .f32 = 32 ∨ (Rect.block (s := S8192x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S8192x128.size a
  hwx0_2 : ∀ i : grid0.Coords, EltTy.bits .f32 = 32 ∨ (Rect.block (s := S8192x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S8192x128.size a
  hwx0_6 : ∀ i : grid0.Coords, EltTy.bits .f32 = 32 ∨ (Rect.block (s := S8192x128) S512x128.size (cc0_transform_6 i) (hinb0_6 i)).WholeWords (EltTy.packing .f32)

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S512x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S8192 : Shape := ⟨1, ![8192]⟩
abbrev S_ : Shape := ⟨0, ![]⟩
abbrev S8192x1 : Shape := ⟨2, ![8192, 1]⟩
abbrev S1x128 : Shape := ⟨2, ![1, 128]⟩

abbrev nBuf : Space → Nat
  | .hbm => 23
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x128, .f32⟩
  | .hbm, ⟨12, _⟩ => ⟨S8192x1, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x1, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S1x128, .f32⟩
  | .hbm, ⟨21, _⟩ => ⟨S8192x128, .f32⟩
  | .hbm, ⟨22, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.BitsShared.lean ====
/-
  (The program as printed, read at the word level: the same control structure and the same stores as its idealization,
  so the same argument, stated for this program's own names.)

  What the three control cases of the layer's kernel share.

  The kernel visits a 16 x 4 grid: 16 row blocks of 512 rows, and for each the 4 consecutive runs of 2048 neighbours.
  At a point it adds, into two accumulators it keeps between points, the run's share of the aggregate (512 x 128)
  and of the row sums (512 x 1).  At the FIRST run of a row block it clears both accumulators beforehand; at the LAST
  it also finishes: adds the self term, divides by the degree, applies the dense transform and the bias, and stores
  the row block's 512 x 128 output.  So a point is in one of three cases, decided by its run number alone:
  first (run 0), middle (runs 1, 2), last (run 3).

  Stated here: the arrays as the region finds them (the two reshapes before it touch no argument); each input
  window's block at a point and that the window's buffer holds it there, freshly fetched or not; the two branch
  conditions in closed form over the 64 points; where the output window is idle (every point but the last run's);
  and the region's invariant with the two accumulators named.
-/
import proofs.«160938_j23098334118224_1_alg».proof.Proof.Gen.Kernel.Launch
import proofs.«160938_j23098334118224_1_alg».proof.Proof.Gen.Kernel.Skeleton
import proofs.«160938_j23098334118224_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core c's buffer contents when the region is entered: after the two reshapes that precede it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the two reshapes followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither reshape writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not (unfetched, the block
    index has not moved), for any proof data whose array is the region's and whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, over the grid -/

/-- "This is the first run of the row block": the clearing branch is taken. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last run of the row block": the finishing branch is taken. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
/-- Off the last run the body stores nothing into the output window, and the block is not written back there. -/
theorem idleAt6 : ∀ t : Fin cfg0.N, ¬cond0_1 (grid0.coords t) → cfg0.idle 6 (grid0.coords t) = true := by decide +kernel
theorem noFlush6 : ∀ t : Fin cfg0.N, ¬cond0_1 (grid0.coords t) → (cfg0.win 6).flush t = false := by decide +kernel
/-- At the last run it stores the whole block. -/
theorem liveAt6 : ∀ t : Fin cfg0.N, cond0_1 (grid0.coords t) → cfg0.idle 6 (grid0.coords t) = false := by decide +kernel

/-! ## The memrefs the body is called with -/

/-- One staging buffer of the output window, through which its contents are stated. -/
abbrev VO : View sig .tc .vmem S512x128 .f32 := (Memref.whole cc0_stg6_0 : Memref sig .tc .vmem S512x128 .f32).view
abbrev ms0 (t : Fin cfg0.N) : Memref sig .tc .vmem S512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x128 .f32 := win0_6.stage (cfg0.slots t 6)
abbrev hs6 (t : Fin cfg0.N) : (ms6 t).IsWhole := hstage0_6 ((cfg0.slots t 6).cast nbuf0_6)
/-- The two accumulators: whole scoped buffers of the kernel's own. -/
abbrev scAgg : Memref sig .tc .vmem S512x128 .f32 := Memref.whole cc0_scratch0
abbrev scSum : Memref sig .tc .vmem S512x1 .f32 := Memref.whole cc0_scratch1
abbrev VAgg : View sig .tc .vmem S512x128 .f32 := scAgg.view
abbrev VSum : View sig .tc .vmem S512x1 .f32 := scSum.view

/-- The class's invariant with the two accumulators as memrefs owned at some contents. -/
theorem PhiA_eq (c : Dev nD) :
    (Pipeline.ΦA spec0 c : sProp 𝕄)
      = iprop(iprop((∃ d, owns (c : Thread nD τ) scAgg fullShare d) ∗ (∃ d, owns (c : Thread nD τ) scSum fullShare d)) ∗ (∃ r, prngReg c r)) := by
  unfold Pipeline.ΦA; rw [scopedRest0_eq]; simp only [scAgg, scSum, owns_whole]; try rfl

end Cert.Kernel.Hand

end
-- ==== Proof.BitsRunA.lean ====
/-
  (The program as printed, read at the word level: the same control structure and the same stores as its idealization,
  so the same argument, stated for this program's own names.)

  The body at the FIRST run of a row block: both accumulators are cleared, then the run's products and row sums are
  added.  It reads the adjacency block and the neighbours' feature block and writes both accumulators (whatever they
  held); the other windows are not touched.
-/
import proofs.«160938_j23098334118224_1_alg».proof.Proof.BitsShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in each buffer it writes, with the proof that from whole buffers at the stated
    contents the body runs to a continuation that holds the buffers it only read as they were and each written buffer
    with those pieces written. -/
noncomputable def kernelRun_A (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : cond0_0 i) (hc1 : ¬cond0_1 i) (x0 : Vec F S512x2048 .f32) (x1 : Vec F S2048x128 .f32) :
    Σ' (LA : List (View.Piece (Elt F) S512x128 .f32)), { LS : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LA) ∗ (∃ f, arg10.view.loc (c : Thread nD τ) ↦[arg10.view.set]{fullShare} arg10.view.writes (Elt F) f LS)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%da, %fa, -, HA⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HA]; · iexists _; iexact HA
    iexists _; iexact HS

end Cert.Kernel.Hand

end
-- ==== Proof.BitsRunB.lean ====
/-
  (The program as printed, read at the word level: the same control structure and the same stores as its idealization,
  so the same argument, stated for this program's own names.)

  The body at a MIDDLE run of a row block: the run's products and row sums are added to the accumulators as the
  run before left them.  It reads the adjacency block, the neighbours' feature block and both accumulators, and
  writes both accumulators; the other windows are not touched.
-/
import proofs.«160938_j23098334118224_1_alg».proof.Proof.BitsShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in each buffer it writes, with the proof that from whole buffers at the stated
    contents the body runs to a continuation that holds the buffers it only read as they were and each written buffer
    with those pieces written. -/
noncomputable def kernelRun_B (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : ¬cond0_1 i) (x0 : Vec F S512x2048 .f32) (x1 : Vec F S2048x128 .f32) (xa : Vec F S512x128 .f32) (xs : Vec F S512x1 .f32) :
    Σ' (LA : List (View.Piece (Elt F) S512x128 .f32)), { LS : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg9 fullShare xa ∗ owns (c : Thread nD τ) arg10 fullShare xs
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LA) ∗ (∃ f, arg10.view.loc (c : Thread nD τ) ↦[arg10.view.set]{fullShare} arg10.view.writes (Elt F) f LS)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%fa, %hfa, HA⟩, ⟨%fs, %hfs, HS⟩, Hk⟩
    obtain rfl := harg2.eq_unread hf0; obtain rfl := harg3.eq_unread hf1; obtain rfl := harg9.eq_unread hfa; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HA]; · iexists _; iexact HA
    iexists _; iexact HS

end Cert.Kernel.Hand

end
-- ==== Proof.BitsRunC.lean ====
/-
  (The program as printed, read at the word level: the same control structure and the same stores as its idealization,
  so the same argument, stated for this program's own names.)

  The body at the LAST run of a row block: the run's products and row sums are added to the accumulators as the run
  before left them, and the row block is finished — self term, division by the degree, dense transform, bias — and
  stored into the output window's buffer (whatever it held).  It reads all six input windows.
-/
import proofs.«160938_j23098334118224_1_alg».proof.Proof.BitsShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in each buffer it writes, with the proof that from whole buffers at the stated
    contents the body runs to a continuation that holds the buffers it only read as they were and each written buffer
    with those pieces written. -/
noncomputable def kernelRun_C (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x2048 .f32) (x1 : Vec F S2048x128 .f32) (x2 : Vec F S512x128 .f32) (x3 : Vec F S512x1 .f32) (x4 : Vec F S128x128 .f32) (x5 : Vec F S1x128 .f32) (xa : Vec F S512x128 .f32) (xs : Vec F S512x1 .f32) :
    Σ' (LO : List (View.Piece (Elt F) S512x128 .f32)) (LA : List (View.Piece (Elt F) S512x128 .f32)), { LS : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xa ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LA) ∗ (∃ f, arg10.view.loc (c : Thread nD τ) ↦[arg10.view.set]{fullShare} arg10.view.writes (Elt F) f LS)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, ⟨%fa, %hfa, HA⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfa; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]; · iexists _; iexact HO
    isplitl [HA]; · iexists _; iexact HA
    iexists _; iexact HS

end Cert.Kernel.Hand

end
-- ==== Proof.BitsCases.lean ====
/-
  (The program as printed, read at the word level: the same control structure and the same stores as its idealization,
  so the same argument, stated for this program's own names.)

  What the buffers hold point by point.

  Each control case leaves the pieces its stores wrote; read back, they say what the two accumulators (and, at a last
  run, the output window's buffer) hold after the body.  Going through the 64 points in order — a first run starts
  afresh, a middle or last run continues from what the run before left — gives, for every point, the contents of the
  output buffer and of both accumulators after it.  The proof data of the region are then: every input window's
  buffer at its block, the output window's at that accumulation, the invariant naming both accumulators after the
  first point.  The neighbours' feature block and the row block of the same features are two windows on ONE array:
  each holds half of its share, which is enough since both only read it.
-/
import proofs.«160938_j23098334118224_1_alg».proof.Proof.BitsRunA
import proofs.«160938_j23098334118224_1_alg».proof.Proof.BitsRunB
import proofs.«160938_j23098334118224_1_alg».proof.Proof.BitsRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The pieces case A leaves in the aggregate accumulator tile it. -/
theorem coverAggA (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : cond0_0 i) (hc1 : ¬cond0_1 i) (x0 : Vec F S512x2048 .f32) (x1 : Vec F S2048x128 .f32) (y : S512x128.Idx) :
    ∃ pc ∈ (kernelRun_A c i arg2 harg2 arg3 harg3 arg4 harg4 arg5 harg5 arg6 harg6 arg7 harg7 arg8 harg8 arg9 harg9 arg10 harg10 hc0 hc1 x0 x1).1, y ∈ pc.1.set :=
  View.cover_of_tiledL (kernelRun_A c i arg2 harg2 arg3 harg3 arg4 harg4 arg5 harg5 arg6 harg6 arg7 harg7 arg8 harg8 arg9 harg9 arg10 harg10 hc0 hc1 x0 x1).1 S512x128.size (by sl_kernel_rfl) y
/-- What case A leaves in the aggregate accumulator: its pieces read back. -/
def aggA (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : cond0_0 i) (hc1 : ¬cond0_1 i) (x0 : Vec F S512x2048 .f32) (x1 : Vec F S2048x128 .f32) : Vec F S512x128 .f32 :=
  VAgg.read (Elt F) (VAgg.writes (Elt F) VAgg.junk (kernelRun_A c i arg2 harg2 arg3 harg3 arg4 harg4 arg5 harg5 arg6 harg6 arg7 harg7 arg8 harg8 arg9 harg9 arg10 harg10 hc0 hc1 x0 x1).1)
/-- The pieces case A leaves in the row-sum accumulator tile it. -/
theorem coverSumA (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : cond0_0 i) (hc1 : ¬cond0_1 i) (x0 : Vec F S512x2048 .f32) (x1 : Vec F S2048x128 .f32) (y : S512x1.Idx) :
    ∃ pc ∈ (kernelRun_A c i arg2 harg2 arg3 harg3 arg4 harg4 arg5 harg5 arg6 harg6 arg7 harg7 arg8 harg8 arg9 harg9 arg10 harg10 hc0 hc1 x0 x1).2.1, y ∈ pc.1.set :=
  View.cover_of_tiledL (kernelRun_A c i arg2 harg2 arg3 harg3 arg4 harg4 arg5 harg5 arg6 harg6 arg7 harg7 arg8 harg8 arg9 harg9 arg10 harg10 hc0 hc1 x0 x1).2.1 S512x1.size (by sl_kernel_rfl) y
/-- What case A leaves in the row-sum accumulator. -/
def sumA (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : cond0_0 i) (hc1 : ¬cond0_1 i) (x0 : Vec F S512x2048 .f32) (x1 : Vec F S2048x128 .f32) : Vec F S512x1 .f32 :=
  VSum.read (Elt F) (VSum.writes (Elt F) VSum.junk (kernelRun_A c i arg2 harg2 arg3 harg3 arg4 harg4 arg5 harg5 arg6 harg6 arg7 harg7 arg8 harg8 arg9 harg9 arg10 harg10 hc0 hc1 x0 x1).2.1)

/-- The pieces case B leaves in the aggregate accumulator tile it. -/
theorem coverAggB (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : ¬cond0_1 i) (x0 : Vec F S512x2048 .f32) (x1 : Vec F S2048x128 .f32) (xa : Vec F S512x128 .f32) (xs : Vec F S512x1 .f32) (y : S512x128.Idx) :
    ∃ pc ∈ (kernelRun_B c i arg2 harg2 arg3 harg3 arg4 harg4 arg5 harg5 arg6 harg6 arg7 harg7 arg8 harg8 arg9 harg9 arg10 harg10 hc0 hc1 x0 x1 xa xs).1, y ∈ pc.1.set :=
  View.cover_of_tiledL (kernelRun_B c i arg2 harg2 arg3 harg3 arg4 harg4 arg5 harg5 arg6 harg6 arg7 harg7 arg8 harg8 arg9 harg9 arg10 harg10 hc0 hc1 x0 x1 xa xs).1 S512x128.size (by sl_kernel_rfl) y
/-- What case B leaves in the aggregate accumulator: its pieces read back. -/
def aggB (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : ¬cond0_1 i) (x0 : Vec F S512x2048 .f32) (x1 : Vec F S2048x128 .f32) (xa : Vec F S512x128 .f32) (xs : Vec F S512x1 .f32) : Vec F S512x128 .f32 :=
  VAgg.read (Elt F) (VAgg.writes (Elt F) VAgg.junk (kernelRun_B c i arg2 harg2 arg3 harg3 arg4 harg4 arg5 harg5 arg6 harg6 arg7 harg7 arg8 harg8 arg9 harg9 arg10 harg10 hc0 hc1 x0 x1 xa xs).1)
/-- The pieces case B leaves in the row-sum accumulator tile it. -/
theorem coverSumB (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : ¬cond0_1 i) (x0 : Vec F S512x2048 .f32) (x1 : Vec F S2048x128 .f32) (xa : Vec F S512x128 .f32) (xs : Vec F S512x1 .f32) (y : S512x1.Idx) :
    ∃ pc ∈ (kernelRun_B c i arg2 harg2 arg3 harg3 arg4 harg4 arg5 harg5 arg6 harg6 arg7 harg7 arg8 harg8 arg9 harg9 arg10 harg10 hc0 hc1 x0 x1 xa xs).2.1, y ∈ pc.1.set :=
  View.cover_of_tiledL (kernelRun_B c i arg2 harg2 arg3 harg3 arg4 harg4 arg5 harg5 arg6 harg6 arg7 harg7 arg8 harg8 arg9 harg9 arg10 harg10 hc0 hc1 x0 x1 xa xs).2.1 S512x1.size (by sl_kernel_rfl) y
/-- What case B leaves in the row-sum accumulator. -/
def sumB (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : ¬cond0_1 i) (x0 : Vec F S512x2048 .f32) (x1 : Vec F S2048x128 .f32) (xa : Vec F S512x128 .f32) (xs : Vec F S512x1 .f32) : Vec F S512x1 .f32 :=
  VSum.read (Elt F) (VSum.writes (Elt F) VSum.junk (kernelRun_B c i arg2 harg2 arg3 harg3 arg4 harg4 arg5 harg5 arg6 harg6 arg7 harg7 arg8 harg8 arg9 harg9 arg10 harg10 hc0 hc1 x0 x1 xa xs).2.1)

/-- The pieces case C leaves in the aggregate accumulator tile it. -/
theorem coverAggC (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x2048 .f32) (x1 : Vec F S2048x128 .f32) (x2 : Vec F S512x128 .f32) (x3 : Vec F S512x1 .f32) (x4 : Vec F S128x128 .f32) (x5 : Vec F S1x128 .f32) (xa : Vec F S512x128 .f32) (xs : Vec F S512x1 .f32) (y : S512x128.Idx) :
    ∃ pc ∈ (kernelRun_C c i arg2 harg2 arg3 harg3 arg4 harg4 arg5 harg5 arg6 harg6 arg7 harg7 arg8 harg8 arg9 harg9 arg10 harg10 hc0 hc1 x0 x1 x2 x3 x4 x5 xa xs).2.1, y ∈ pc.1.set :=
  View.cover_of_tiledL (kernelRun_C c i arg2 harg2 arg3 harg3 arg4 harg4 arg5 harg5 arg6 harg6 arg7 harg7 arg8 harg8 arg9 harg9 arg10 harg10 hc0 hc1 x0 x1 x2 x3 x4 x5 xa xs).2.1 S512x128.size (by sl_kernel_rfl) y
/-- What case C leaves in the aggregate accumulator: its pieces read back. -/
def aggC (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x2048 .f32) (x1 : Vec F S2048x128 .f32) (x2 : Vec F S512x128 .f32) (x3 : Vec F S512x1 .f32) (x4 : Vec F S128x128 .f32) (x5 : Vec F S1x128 .f32) (xa : Vec F S512x128 .f32) (xs : Vec F S512x1 .f32) : Vec F S512x128 .f32 :=
  VAgg.read (Elt F) (VAgg.writes (Elt F) VAgg.junk (kernelRun_C c i arg2 harg2 arg3 harg3 arg4 harg4 arg5 harg5 arg6 harg6 arg7 harg7 arg8 harg8 arg9 harg9 arg10 harg10 hc0 hc1 x0 x1 x2 x3 x4 x5 xa xs).2.1)
/-- The pieces case C leaves in the row-sum accumulator tile it. -/
theorem coverSumC (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x2048 .f32) (x1 : Vec F S2048x128 .f32) (x2 : Vec F S512x128 .f32) (x3 : Vec F S512x1 .f32) (x4 : Vec F S128x128 .f32) (x5 : Vec F S1x128 .f32) (xa : Vec F S512x128 .f32) (xs : Vec F S512x1 .f32) (y : S512x1.Idx) :
    ∃ pc ∈ (kernelRun_C c i arg2 harg2 arg3 harg3 arg4 harg4 arg5 harg5 arg6 harg6 arg7 harg7 arg8 harg8 arg9 harg9 arg10 harg10 hc0 hc1 x0 x1 x2 x3 x4 x5 xa xs).2.2.1, y ∈ pc.1.set :=
  View.cover_of_tiledL (kernelRun_C c i arg2 harg2 arg3 harg3 arg4 harg4 arg5 harg5 arg6 harg6 arg7 harg7 arg8 harg8 arg9 harg9 arg10 harg10 hc0 hc1 x0 x1 x2 x3 x4 x5 xa xs).2.2.1 S512x1.size (by sl_kernel_rfl) y
/-- What case C leaves in the row-sum accumulator. -/
def sumC (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x2048 .f32) (x1 : Vec F S2048x128 .f32) (x2 : Vec F S512x128 .f32) (x3 : Vec F S512x1 .f32) (x4 : Vec F S128x128 .f32) (x5 : Vec F S1x128 .f32) (xa : Vec F S512x128 .f32) (xs : Vec F S512x1 .f32) : Vec F S512x1 .f32 :=
  VSum.read (Elt F) (VSum.writes (Elt F) VSum.junk (kernelRun_C c i arg2 harg2 arg3 harg3 arg4 harg4 arg5 harg5 arg6 harg6 arg7 harg7 arg8 harg8 arg9 harg9 arg10 harg10 hc0 hc1 x0 x1 x2 x3 x4 x5 xa xs).2.2.1)
/-- The one store of case C into the output window's buffer covers the block. -/
theorem coverOutC (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x2048 .f32) (x1 : Vec F S2048x128 .f32) (x2 : Vec F S512x128 .f32) (x3 : Vec F S512x1 .f32) (x4 : Vec F S128x128 .f32) (x5 : Vec F S1x128 .f32) (xa : Vec F S512x128 .f32) (xs : Vec F S512x1 .f32) (y : S512x128.Idx) :
    ∃ pc ∈ (kernelRun_C c i arg2 harg2 arg3 harg3 arg4 harg4 arg5 harg5 arg6 harg6 arg7 harg7 arg8 harg8 arg9 harg9 arg10 harg10 hc0 hc1 x0 x1 x2 x3 x4 x5 xa xs).1, y ∈ pc.1.set :=
  View.cover_of_tiledL (kernelRun_C c i arg2 harg2 arg3 harg3 arg4 harg4 arg5 harg5 arg6 harg6 arg7 harg7 arg8 harg8 arg9 harg9 arg10 harg10 hc0 hc1 x0 x1 x2 x3 x4 x5 xa xs).1 S512x128.size (by sl_kernel_rfl) y
/-- What case C leaves in the output window's buffer. -/
def outC (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x2048 .f32) (x1 : Vec F S2048x128 .f32) (x2 : Vec F S512x128 .f32) (x3 : Vec F S512x1 .f32) (x4 : Vec F S128x128 .f32) (x5 : Vec F S1x128 .f32) (xa : Vec F S512x128 .f32) (xs : Vec F S512x1 .f32) : Vec F S512x128 .f32 :=
  VO.read (Elt F) (VO.writes (Elt F) VO.junk (kernelRun_C c i arg2 harg2 arg3 harg3 arg4 harg4 arg5 harg5 arg6 harg6 arg7 harg7 arg8 harg8 arg9 harg9 arg10 harg10 hc0 hc1 x0 x1 x2 x3 x4 x5 xa xs).1)

/-- Off the last run the output window's buffer is not the body's to describe: a placeholder nothing consults. -/
def junkOut : Vec F S512x128 .f32 := VO.read (Elt F) (VO.writes (Elt F) VO.junk [])

/-! ## Point by point -/

/-- After the body at position n: the output window's buffer, the aggregate accumulator, the row-sum accumulator. -/
def outsAt (c : Dev nD) : (n : ℕ) → n < cfg0.N → Vec F S512x128 .f32 × Vec F S512x128 .f32 × Vec F S512x1 .f32
  | 0, hn => have h0 : (0 : ℕ) % 4 = 0 := Nat.zero_mod _
    (junkOut, aggA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scAgg (Memref.isWhole_whole _) scSum (Memref.isWhole_whole _) ((hcond0_0 ⟨0, hn⟩).mpr h0) (fun h => absurd ((hcond0_1 ⟨0, hn⟩).mp h) (by (try dsimp only); omega)) (iblk m c 0 ⟨0, hn⟩) (iblk m c 1 ⟨0, hn⟩), sumA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scAgg (Memref.isWhole_whole _) scSum (Memref.isWhole_whole _) ((hcond0_0 ⟨0, hn⟩).mpr h0) (fun h => absurd ((hcond0_1 ⟨0, hn⟩).mp h) (by (try dsimp only); omega)) (iblk m c 0 ⟨0, hn⟩) (iblk m c 1 ⟨0, hn⟩))
  | n + 1, hn =>
    if h0 : (n + 1) % 4 = 0 then
      (junkOut, aggA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scAgg (Memref.isWhole_whole _) scSum (Memref.isWhole_whole _) ((hcond0_0 ⟨n + 1, hn⟩).mpr h0) (fun h => absurd ((hcond0_1 ⟨n + 1, hn⟩).mp h) (by (try dsimp only); omega)) (iblk m c 0 ⟨n + 1, hn⟩) (iblk m c 1 ⟨n + 1, hn⟩), sumA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scAgg (Memref.isWhole_whole _) scSum (Memref.isWhole_whole _) ((hcond0_0 ⟨n + 1, hn⟩).mpr h0) (fun h => absurd ((hcond0_1 ⟨n + 1, hn⟩).mp h) (by (try dsimp only); omega)) (iblk m c 0 ⟨n + 1, hn⟩) (iblk m c 1 ⟨n + 1, hn⟩))
    else
      if h1 : (n + 1) % 4 = 3 then
        (outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scAgg (Memref.isWhole_whole _) scSum (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2, aggC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scAgg (Memref.isWhole_whole _) scSum (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2, sumC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scAgg (Memref.isWhole_whole _) scSum (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2)
      else
        (junkOut, aggB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scAgg (Memref.isWhole_whole _) scSum (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt c n (Nat.lt_of_succ_lt hn)).2.1 (outsAt c n (Nat.lt_of_succ_lt hn)).2.2, sumB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scAgg (Memref.isWhole_whole _) scSum (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt c n (Nat.lt_of_succ_lt hn)).2.1 (outsAt c n (Nat.lt_of_succ_lt hn)).2.2)

theorem outsAt_A (c : Dev nD) (t : Fin cfg0.N) (h0 : t.val % 4 = 0) :
    outsAt m c t.val t.isLt = (junkOut, aggA c (grid0.coords t) (ms0 t) (hs0 t) (ms1 t) (hs1 t) (ms2 t) (hs2 t) (ms3 t) (hs3 t) (ms4 t) (hs4 t) (ms5 t) (hs5 t) (ms6 t) (hs6 t) scAgg (Memref.isWhole_whole _) scSum (Memref.isWhole_whole _) ((hcond0_0 t).mpr h0) (fun h => absurd ((hcond0_1 t).mp h) (by (try dsimp only); omega)) (iblk m c 0 t) (iblk m c 1 t), sumA c (grid0.coords t) (ms0 t) (hs0 t) (ms1 t) (hs1 t) (ms2 t) (hs2 t) (ms3 t) (hs3 t) (ms4 t) (hs4 t) (ms5 t) (hs5 t) (ms6 t) (hs6 t) scAgg (Memref.isWhole_whole _) scSum (Memref.isWhole_whole _) ((hcond0_0 t).mpr h0) (fun h => absurd ((hcond0_1 t).mp h) (by (try dsimp only); omega)) (iblk m c 0 t) (iblk m c 1 t)) := by
  obtain ⟨n, hn⟩ := t
  cases n with
  | zero => exact rfl
  | succ n => exact (dif_pos h0).trans rfl

theorem outsAt_B (c : Dev nD) (t : Fin cfg0.N) (h0 : ¬t.val % 4 = 0) (h1 : ¬t.val % 4 = 3) :
    outsAt m c t.val t.isLt = (junkOut, aggB c (grid0.coords t) (ms0 t) (hs0 t) (ms1 t) (hs1 t) (ms2 t) (hs2 t) (ms3 t) (hs3 t) (ms4 t) (hs4 t) (ms5 t) (hs5 t) (ms6 t) (hs6 t) scAgg (Memref.isWhole_whole _) scSum (Memref.isWhole_whole _) (fun h => h0 ((hcond0_0 t).mp h)) (fun h => h1 ((hcond0_1 t).mp h)) (iblk m c 0 t) (iblk m c 1 t) (outsAt m c (t.val - 1) (Nat.lt_of_le_of_lt (Nat.sub_le _ _) t.isLt)).2.1 (outsAt m c (t.val - 1) (Nat.lt_of_le_of_lt (Nat.sub_le _ _) t.isLt)).2.2, sumB c (grid0.coords t) (ms0 t) (hs0 t) (ms1 t) (hs1 t) (ms2 t) (hs2 t) (ms3 t) (hs3 t) (ms4 t) (hs4 t) (ms5 t) (hs5 t) (ms6 t) (hs6 t) scAgg (Memref.isWhole_whole _) scSum (Memref.isWhole_whole _) (fun h => h0 ((hcond0_0 t).mp h)) (fun h => h1 ((hcond0_1 t).mp h)) (iblk m c 0 t) (iblk m c 1 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 4 = 0) (h1 : t.val % 4 = 3) :
    outsAt m c t.val t.isLt = (outC c (grid0.coords t) (ms0 t) (hs0 t) (ms1 t) (hs1 t) (ms2 t) (hs2 t) (ms3 t) (hs3 t) (ms4 t) (hs4 t) (ms5 t) (hs5 t) (ms6 t) (hs6 t) scAgg (Memref.isWhole_whole _) scSum (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2, aggC c (grid0.coords t) (ms0 t) (hs0 t) (ms1 t) (hs1 t) (ms2 t) (hs2 t) (ms3 t) (hs3 t) (ms4 t) (hs4 t) (ms5 t) (hs5 t) (ms6 t) (hs6 t) scAgg (Memref.isWhole_whole _) scSum (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2, sumC c (grid0.coords t) (ms0 t) (hs0 t) (ms1 t) (hs1 t) (ms2 t) (hs2 t) (ms3 t) (hs3 t) (ms4 t) (hs4 t) (ms5 t) (hs5 t) (ms6 t) (hs6 t) scAgg (Memref.isWhole_whole _) scSum (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The kernel's scoped buffers that no window stages are its two accumulators. -/
theorem scratch_eq (c : Dev nD) :
    (Pipeline.scopedRest (Ix := Unit) (Name := ℕ) (U := UR sig nD τ) (Lvl := ℕ) (Val := Elt F) spec0 c : sProp 𝕄)
      = iprop((∃ d, owns (c : Thread nD τ) scAgg fullShare d) ∗ (∃ d, owns (c : Thread nD τ) scSum fullShare d)) := by
  rw [scopedRest0_eq]; simp only [scAgg, scSum, owns_whole]; try rfl

/-- The region's invariant before position n: before the first point the accumulators hold anything; afterwards each
    holds what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scAgg fullShare ((outsAt m c n hn).2.1) ∗ owns (c : Thread nD τ) scSum fullShare ((outsAt m c n hn).2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scAgg fullShare ((outsAt m c n hn).2.1) ∗ owns (c : Thread nD τ) scSum fullShare ((outsAt m c n hn).2.2)) := rfl

theorem PhiS_pos (c : Dev nD) (n : ℕ) (h : n ≤ cfg0.N) (hz : n ≠ 0) :
    PhiS m c n h = iprop(owns (c : Thread nD τ) scAgg fullShare ((outsAt m c (n - 1) (by omega)).2.1) ∗ owns (c : Thread nD τ) scSum fullShare ((outsAt m c (n - 1) (by omega)).2.2)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d

end Cert.Kernel.Hand

end
-- ==== Proof.BitsBody.lean ====
/-
  (The program as printed, read at the word level: the same control structure and the same stores as its idealization,
  so the same argument, stated for this program's own names.)

  The body obligation of the region: at every one of the 64 points, handed the invariant and every window's current
  buffer at what the point finds there, the kernel's body runs and hands back the invariant for the next point and
  every buffer at what the proof data say it leaves.  The point's run number decides which of the three cases applies;
  a buffer the case does not touch is handed back as it was; the output window, idle off the last run, likewise.
-/
import proofs.«160938_j23098334118224_1_alg».proof.Proof.BitsCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  by_cases h0 : t.val % 4 = 0
  · have h1 : ¬t.val % 4 = 3 := by omega
    rw [Dat.leavesExact_idle (dats m 0 c) 6 t (idleAt6 t (fun h => h1 ((hcond0_1 t).mp h))) (noFlush6 t (fun h => h1 ((hcond0_1 t).mp h)))]
    rw [outsAt_A m c t h0]
    unfold aggA sumA; (try dsimp only)
    by_cases hz : t.val = 0
    · rw [PhiS_castSucc m c t, PhiS_zero m c _ _ hz, scratch_eq]
      iintro ⟨⟨HA, HS⟩, Ho, ⟨%d0, H0⟩, ⟨%d1, H1⟩, ⟨%d2, H2⟩, ⟨%d3, H3⟩, ⟨%d4, H4⟩, ⟨%d5, H5⟩, ⟨%d6, H6⟩⟩
      iapply ((kernelRun_A c (grid0.coords t) _ _ _ _ _ _ _ _ _ _ _ _ _ _ _ _ _ _ ((hcond0_0 t).mpr h0) (fun h => h1 ((hcond0_1 t).mp h)) (iblk m c 0 t) (iblk m c 1 t)).2.2 Set.univ _)
      isplitl [H0]; · iexact H0
      isplitl [H1]; · iexact H1
      isplitl [HA]; · iexact HA
      isplitl [HS]; · iexact HS
      iintro ⟨H0, H1, ⟨%ea, HA⟩, ⟨%es, HS⟩⟩
      isplitl [HA HS]
      · isplitl [HA]
        · unfold owns; iexists _; isplitr
          swap; · iexact HA
          ipureintro; exact View.read_writes_of_cover _ _ _ _ _ (coverAggA c _ _ _ _ _ _ _ _ _ _ _ _ _ _ _ _ _ _ _ _ _ _ _)
        · unfold owns; iexists _; isplitr
          swap; · iexact HS
          ipureintro; exact View.read_writes_of_cover _ _ _ _ _ (coverSumA c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨⟨HA, HS⟩, Ho, ⟨%d0, H0⟩, ⟨%d1, H1⟩, ⟨%d2, H2⟩, ⟨%d3, H3⟩, ⟨%d4, H4⟩, ⟨%d5, H5⟩, ⟨%d6, H6⟩⟩
      iapply ((kernelRun_A c (grid0.coords t) _ _ _ _ _ _ _ _ _ _ _ _ _ _ _ _ _ _ ((hcond0_0 t).mpr h0) (fun h => h1 ((hcond0_1 t).mp h)) (iblk m c 0 t) (iblk m c 1 t)).2.2 Set.univ _)
      isplitl [H0]; · iexact H0
      isplitl [H1]; · iexact H1
      isplitl [HA]; · iexists _; iexact HA
      isplitl [HS]; · iexists _; iexact HS
      iintro ⟨H0, H1, ⟨%ea, HA⟩, ⟨%es, HS⟩⟩
      isplitl [HA HS]
      · isplitl [HA]
        · unfold owns; iexists _; isplitr
          swap; · iexact HA
          ipureintro; exact View.read_writes_of_cover _ _ _ _ _ (coverAggA c _ _ _ _ _ _ _ _ _ _ _ _ _ _ _ _ _ _ _ _ _ _ _)
        · unfold owns; iexists _; isplitr
          swap; · iexact HS
          ipureintro; exact View.read_writes_of_cover _ _ _ _ _ (coverSumA c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 4 = 3
    · rw [show (dats m 0 c).leavesExact 6 t = owns (c : Thread nD τ) (ms6 t) fullShare ((dats m 0 c).after 6 t) from by
        unfold Dat.leavesExact; rw [liveAt6 t ((hcond0_1 t).mpr h1)], after6]
      rw [outsAt_C m c t h0 h1]
      unfold outC aggC sumC; (try dsimp only)
      rw [PhiS_castSucc m c t, PhiS_pos m c _ _ hz]
      iintro ⟨⟨HA, HS⟩, Ho, ⟨%d0, H0⟩, ⟨%d1, H1⟩, ⟨%d2, H2⟩, ⟨%d3, H3⟩, ⟨%d4, H4⟩, ⟨%d5, H5⟩, ⟨%d6, H6⟩⟩
      iapply ((kernelRun_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HA]; · iexact HA
      isplitl [HS]; · iexact HS
      iintro ⟨H0, H1, H2, H3, H4, H5, ⟨%eo, H6⟩, ⟨%ea, HA⟩, ⟨%es, HS⟩⟩
      isplitl [HA HS]
      · isplitl [HA]
        · unfold owns; iexists _; isplitr
          swap; · iexact HA
          ipureintro; exact View.read_writes_of_cover _ _ _ _ _ (coverAggC c _ _ _ _ _ _ _ _ _ _ _ _ _ _ _ _ _ _ _ _ _ _ _ _ _ _ _ _ _)
        · unfold owns; iexists _; isplitr
          swap; · iexact HS
          ipureintro; exact View.read_writes_of_cover _ _ _ _ _ (coverSumC c _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverOutC c _ _ _ _ _ _ _ _ _ _ _ _ _ _ _ _ _ _ _ _ _ _ _ _ _ _ _ _ _)
    · rw [Dat.leavesExact_idle (dats m 0 c) 6 t (idleAt6 t (fun h => h1 ((hcond0_1 t).mp h))) (noFlush6 t (fun h => h1 ((hcond0_1 t).mp h)))]
      rw [outsAt_B m c t h0 h1]
      unfold aggB sumB; (try dsimp only)
      rw [PhiS_castSucc m c t, PhiS_pos m c _ _ hz]
      iintro ⟨⟨HA, HS⟩, Ho, ⟨%d0, H0⟩, ⟨%d1, H1⟩, ⟨%d2, H2⟩, ⟨%d3, H3⟩, ⟨%d4, H4⟩, ⟨%d5, H5⟩, ⟨%d6, H6⟩⟩
      iapply ((kernelRun_B c (grid0.coords t) _ _ _ _ _ _ _ _ _ _ _ _ _ _ _ _ _ _ (fun h => h0 ((hcond0_0 t).mp h)) (fun h => h1 ((hcond0_1 t).mp h)) (iblk m c 0 t) (iblk m c 1 t) _ _).2.2 Set.univ _)
      isplitl [H0]; · iexact H0
      isplitl [H1]; · iexact H1
      isplitl [HA]; · iexact HA
      isplitl [HS]; · iexact HS
      iintro ⟨H0, H1, ⟨%ea, HA⟩, ⟨%es, HS⟩⟩
      isplitl [HA HS]
      · isplitl [HA]
        · unfold owns; iexists _; isplitr
          swap; · iexact HA
          ipureintro; exact View.read_writes_of_cover _ _ _ _ _ (coverAggB c _ _ _ _ _ _ _ _ _ _ _ _ _ _ _ _ _ _ _ _ _ _ _ _ _)
        · unfold owns; iexists _; isplitr
          swap; · iexact HS
          ipureintro; exact View.read_writes_of_cover _ _ _ _ _ (coverSumB c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region — the accumulators at anything — is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulators back at whatever they hold. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scratch_eq]
  iintro ⟨HA, HS⟩
  isplitl [HA]
  · iexists _; iexact HA
  · iexists _; iexact HS

end Cert.Kernel.Hand

end
-- ==== Proof.BitsLaunch.lean ====
/-
  (The program as printed, read at the word level: the same control structure and the same stores as its idealization,
  so the same argument, stated for this program's own names.)

  The region's launch and the frame.

  The launch hands the region each distinct array whole.  Six arrays stand behind the seven windows: the feature array
  x is read through two of them (the neighbours' block and the row block).  Its full share is split into its two
  halves, one per window; every other array goes to its one window whole.  With the body obligation this gives the run
  of the whole program: it terminates without a fault, every window's array ends at what the proof data compute (an
  input array as it was, the output array overwritten block by block by what each last run stored), and every other
  buffer as the region found it.  Read at the five argument arrays, that is the frame.
-/
import proofs.«160938_j23098334118224_1_alg».proof.Proof.BitsBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data's arrays with each window's array a whole buffer. -/
theorem arrays_whole (c : Dev nD) (X : (w : Fin cfg0.W) → Buf (Elt F) ((cfg0.win w).arr.view.loc (c.tc : Thread nD τ))) :
    (dats m 0 c).arrays X = bigSep Finset.univ fun w : Fin cfg0.W =>
      (((c.tc : Thread nD τ).loc (Pipeline.arrRef spec0 w)) ↦{(dats m 0 c).share w} X w : sProp 𝕄) := by
  unfold Dat.arrays
  exact bigSep_congr fun w _ => by rw [(arr_whole0 w).set_eq_univ]

theorem share0 (c : Dev nD) : (dats m 0 c).share 0 = fullShare := rfl
theorem share1 (c : Dev nD) : (dats m 0 c).share 1 = fullShare.left := rfl
theorem share2 (c : Dev nD) : (dats m 0 c).share 2 = fullShare.right := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl

theorem arrAt_zero (c : Dev nD) (w : Fin cfg0.W) : (dats m 0 c).arrAt w 0 = V m c (Pipeline.arrRef spec0 w) :=
  (show (dats m 0 c).arrAt w 0 = (dats m 0 c).A w from rfl).trans (A_eq m c w)

/-- The distinct buffers behind the seven windows' arrays are six. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_arg1) ↦{fullShare} V m c main_arg1) ∗ (((c.tc : Thread nD τ).loc main_arg0) ↦{fullShare} V m c main_arg0)
          ∗ (((c.tc : Thread nD τ).loc main_v0) ↦{fullShare} V m c main_v0) ∗ (((c.tc : Thread nD τ).loc main_arg2) ↦{fullShare} V m c main_arg2)
          ∗ (((c.tc : Thread nD τ).loc main_v1) ↦{fullShare} V m c main_v1) ∗ (((c.tc : Thread nD τ).loc main_v2) ↦{fullShare} V m c main_v2)) :=
  bigSep_eq_bigSepL_of_eq [main_arg1, main_arg0, main_v0, main_arg2, main_v1, main_v2] (by decide) (by decide) _

/-- The six distinct arrays, each whole at the full share, make the seven windows' arrays: x is dealt in halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_whole, bigSep_W0]
  simp only [arrAt_zero, share0, share1, share2, share3, share4, share5, share6]
  rw [arrBufs_eq]
  iintro ⟨H1, H0, Hv0, H2, Hv1, Hv2⟩
  ihave H0' := (pointsTo_share (PosShare.mem_left_op_right fullShare)).1 $$ H0
  icases H0' with ⟨H0l, H0r⟩
  isplitl [H1]; · iexact H1
  isplitl [H0l]; · iexact H0l
  isplitl [H0r]; · iexact H0r
  isplitl [Hv0]; · iexact Hv0
  isplitl [H2]; · iexact H2
  isplitl [Hv1]; · iexact Hv1
  iexact Hv2

set_option backward.isDefEq.respectTransparency.types false in
/-- Every weakly fair execution of the program terminates without a fault; every window's array ends at what the
    proof data compute from the body's stores, every other unscoped buffer as the region found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => (show _ ⊢ (Pipeline.scopedRest (Ix := Unit) (Name := ℕ) (U := UR sig nD τ) (Lvl := ℕ) (Val := Elt F) spec0 c : sProp 𝕄) from by iintro ⟨-, HR⟩; iexact HR).trans (hin m c))
    (hout := fun c => (hout m c).trans (by
      iintro HR
      isplitr; · iempintro
      iexact HR))
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The run read at the result and the argument arrays: the result is the output window's array after all 64 points,
    each argument array is as launched. -/
theorem run_result : θ_run defs (onTc (τ := τ) (main (F := F))) ⟨m, fun _ => 0, ρ⟩ (fun r => ∀ c : Dev nD,
      r.2.mem ((c.tc : Thread nD τ).loc main_v2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 6,
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 4).trans (((dats m 0 c).arrAt_in 4 rfl _).trans ((A_eq m c 4).trans (V_main_arg2 m c))),
      ((h c).2 main_arg3 (Pipeline.mem_restRefs_of main_arg3 rfl (by decide))).trans (V_main_arg3 m c),
      ((h c).2 main_arg4 (Pipeline.mem_restRefs_of main_arg4 rfl (by decide))).trans (V_main_arg4 m c)⟩) (run_main m ρ)

/-- THE FRAME: the program runs to the end, faults nowhere, and leaves its five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_result m ρ)

end Cert.Kernel.Hand

end
-- ==== Proof.IdealShared.lean ====
/-
  What the three control cases of the layer's kernel share.

  The kernel visits a 16 x 4 grid: 16 row blocks of 512 rows, and for each the 4 consecutive runs of 2048 neighbours.
  At a point it adds, into two accumulators it keeps between points, the run's share of the aggregate (512 x 128)
  and of the row sums (512 x 1).  At the FIRST run of a row block it clears both accumulators beforehand; at the LAST
  it also finishes: adds the self term, divides by the degree, applies the dense transform and the bias, and stores
  the row block's 512 x 128 output.  So a point is in one of three cases, decided by its run number alone:
  first (run 0), middle (runs 1, 2), last (run 3).

  Stated here: the arrays as the region finds them (the two reshapes before it touch no argument); each input
  window's block at a point and that the window's buffer holds it there, freshly fetched or not; the two branch
  conditions in closed form over the 64 points; where the output window is idle (every point but the last run's);
  and the region's invariant with the two accumulators named.
-/
import proofs.«160938_j23098334118224_1_alg».proof.Proof.Gen.KernelIdeal.Launch
import proofs.«160938_j23098334118224_1_alg».proof.Proof.Gen.KernelIdeal.Skeleton
import proofs.«160938_j23098334118224_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core c's buffer contents when the region is entered: after the two reshapes that precede it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the two reshapes followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither reshape writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not (unfetched, the block
    index has not moved), for any proof data whose array is the region's and whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, over the grid -/

/-- "This is the first run of the row block": the clearing branch is taken. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last run of the row block": the finishing branch is taken. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
/-- Off the last run the body stores nothing into the output window, and the block is not written back there. -/
theorem idleAt6 : ∀ t : Fin cfg0.N, ¬cond0_1 (grid0.coords t) → cfg0.idle 6 (grid0.coords t) = true := by decide +kernel
theorem noFlush6 : ∀ t : Fin cfg0.N, ¬cond0_1 (grid0.coords t) → (cfg0.win 6).flush t = false := by decide +kernel
/-- At the last run it stores the whole block. -/
theorem liveAt6 : ∀ t : Fin cfg0.N, cond0_1 (grid0.coords t) → cfg0.idle 6 (grid0.coords t) = false := by decide +kernel

/-! ## The memrefs the body is called with -/

/-- One staging buffer of the output window, through which its contents are stated. -/
abbrev VO : View sig .tc .vmem S512x128 .f32 := (Memref.whole cc0_stg6_0 : Memref sig .tc .vmem S512x128 .f32).view
abbrev ms0 (t : Fin cfg0.N) : Memref sig .tc .vmem S512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x128 .f32 := win0_6.stage (cfg0.slots t 6)
abbrev hs6 (t : Fin cfg0.N) : (ms6 t).IsWhole := hstage0_6 ((cfg0.slots t 6).cast nbuf0_6)
/-- The two accumulators: whole scoped buffers of the kernel's own. -/
abbrev scAgg : Memref sig .tc .vmem S512x128 .f32 := Memref.whole cc0_scratch0
abbrev scSum : Memref sig .tc .vmem S512x1 .f32 := Memref.whole cc0_scratch1
abbrev VAgg : View sig .tc .vmem S512x128 .f32 := scAgg.view
abbrev VSum : View sig .tc .vmem S512x1 .f32 := scSum.view

/-- The class's invariant with the two accumulators as memrefs owned at some contents. -/
theorem PhiA_eq (c : Dev nD) :
    (Pipeline.ΦA spec0 c : sProp 𝕄)
      = iprop(iprop((∃ d, owns (c : Thread nD τ) scAgg fullShare d) ∗ (∃ d, owns (c : Thread nD τ) scSum fullShare d)) ∗ (∃ r, prngReg c r)) := by
  unfold Pipeline.ΦA; rw [scopedRest0_eq]; simp only [scAgg, scSum, owns_whole]; try rfl

end Cert.KernelIdeal.Hand

end
-- ==== Proof.IdealRunA.lean ====
/-
  The body at the FIRST run of a row block: both accumulators are cleared, then the run's products and row sums are
  added.  It reads the adjacency block and the neighbours' feature block and writes both accumulators (whatever they
  held); the other windows are not touched.
-/
import proofs.«160938_j23098334118224_1_alg».proof.Proof.IdealShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in each buffer it writes, with the proof that from whole buffers at the stated
    contents the body runs to a continuation that holds the buffers it only read as they were and each written buffer
    with those pieces written. -/
noncomputable def kernelRun_A (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : cond0_0 i) (hc1 : ¬cond0_1 i) (x0 : Vec F S512x2048 .f32) (x1 : Vec F S2048x128 .f32) :
    Σ' (LA : List (View.Piece (Elt F) S512x128 .f32)), { LS : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LA) ∗ (∃ f, arg10.view.loc (c : Thread nD τ) ↦[arg10.view.set]{fullShare} arg10.view.writes (Elt F) f LS)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%da, %fa, -, HA⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HA]; · iexists _; iexact HA
    iexists _; iexact HS

end Cert.KernelIdeal.Hand

end
-- ==== Proof.IdealRunB.lean ====
/-
  The body at a MIDDLE run of a row block: the run's products and row sums are added to the accumulators as the
  run before left them.  It reads the adjacency block, the neighbours' feature block and both accumulators, and
  writes both accumulators; the other windows are not touched.
-/
import proofs.«160938_j23098334118224_1_alg».proof.Proof.IdealShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in each buffer it writes, with the proof that from whole buffers at the stated
    contents the body runs to a continuation that holds the buffers it only read as they were and each written buffer
    with those pieces written. -/
noncomputable def kernelRun_B (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : ¬cond0_1 i) (x0 : Vec F S512x2048 .f32) (x1 : Vec F S2048x128 .f32) (xa : Vec F S512x128 .f32) (xs : Vec F S512x1 .f32) :
    Σ' (LA : List (View.Piece (Elt F) S512x128 .f32)), { LS : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg9 fullShare xa ∗ owns (c : Thread nD τ) arg10 fullShare xs
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LA) ∗ (∃ f, arg10.view.loc (c : Thread nD τ) ↦[arg10.view.set]{fullShare} arg10.view.writes (Elt F) f LS)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%fa, %hfa, HA⟩, ⟨%fs, %hfs, HS⟩, Hk⟩
    obtain rfl := harg2.eq_unread hf0; obtain rfl := harg3.eq_unread hf1; obtain rfl := harg9.eq_unread hfa; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HA]; · iexists _; iexact HA
    iexists _; iexact HS

end Cert.KernelIdeal.Hand

end
-- ==== Proof.IdealRunC.lean ====
/-
  The body at the LAST run of a row block: the run's products and row sums are added to the accumulators as the run
  before left them, and the row block is finished — self term, division by the degree, dense transform, bias — and
  stored into the output window's buffer (whatever it held).  It reads all six input windows.
-/
import proofs.«160938_j23098334118224_1_alg».proof.Proof.IdealShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in each buffer it writes, with the proof that from whole buffers at the stated
    contents the body runs to a continuation that holds the buffers it only read as they were and each written buffer
    with those pieces written. -/
noncomputable def kernelRun_C (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x2048 .f32) (x1 : Vec F S2048x128 .f32) (x2 : Vec F S512x128 .f32) (x3 : Vec F S512x1 .f32) (x4 : Vec F S128x128 .f32) (x5 : Vec F S1x128 .f32) (xa : Vec F S512x128 .f32) (xs : Vec F S512x1 .f32) :
    Σ' (LO : List (View.Piece (Elt F) S512x128 .f32)) (LA : List (View.Piece (Elt F) S512x128 .f32)), { LS : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xa ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LA) ∗ (∃ f, arg10.view.loc (c : Thread nD τ) ↦[arg10.view.set]{fullShare} arg10.view.writes (Elt F) f LS)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, ⟨%fa, %hfa, HA⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfa; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]; · iexists _; iexact HO
    isplitl [HA]; · iexists _; iexact HA
    iexists _; iexact HS

end Cert.KernelIdeal.Hand

end
-- ==== Proof.IdealCases.lean ====
/-
  What the buffers hold point by point.

  Each control case leaves the pieces its stores wrote; read back, they say what the two accumulators (and, at a last
  run, the output window's buffer) hold after the body.  Going through the 64 points in order — a first run starts
  afresh, a middle or last run continues from what the run before left — gives, for every point, the contents of the
  output buffer and of both accumulators after it.  The proof data of the region are then: every input window's
  buffer at its block, the output window's at that accumulation, the invariant naming both accumulators after the
  first point.  The neighbours' feature block and the row block of the same features are two windows on ONE array:
  each holds half of its share, which is enough since both only read it.
-/
import proofs.«160938_j23098334118224_1_alg».proof.Proof.IdealRunA
import proofs.«160938_j23098334118224_1_alg».proof.Proof.IdealRunB
import proofs.«160938_j23098334118224_1_alg».proof.Proof.IdealRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The pieces case A leaves in the aggregate accumulator tile it. -/
theorem coverAggA (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : cond0_0 i) (hc1 : ¬cond0_1 i) (x0 : Vec F S512x2048 .f32) (x1 : Vec F S2048x128 .f32) (y : S512x128.Idx) :
    ∃ pc ∈ (kernelRun_A c i arg2 harg2 arg3 harg3 arg4 harg4 arg5 harg5 arg6 harg6 arg7 harg7 arg8 harg8 arg9 harg9 arg10 harg10 hc0 hc1 x0 x1).1, y ∈ pc.1.set :=
  View.cover_of_tiledL (kernelRun_A c i arg2 harg2 arg3 harg3 arg4 harg4 arg5 harg5 arg6 harg6 arg7 harg7 arg8 harg8 arg9 harg9 arg10 harg10 hc0 hc1 x0 x1).1 S512x128.size (by sl_kernel_rfl) y
/-- What case A leaves in the aggregate accumulator: its pieces read back. -/
def aggA (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : cond0_0 i) (hc1 : ¬cond0_1 i) (x0 : Vec F S512x2048 .f32) (x1 : Vec F S2048x128 .f32) : Vec F S512x128 .f32 :=
  VAgg.read (Elt F) (VAgg.writes (Elt F) VAgg.junk (kernelRun_A c i arg2 harg2 arg3 harg3 arg4 harg4 arg5 harg5 arg6 harg6 arg7 harg7 arg8 harg8 arg9 harg9 arg10 harg10 hc0 hc1 x0 x1).1)
/-- The pieces case A leaves in the row-sum accumulator tile it. -/
theorem coverSumA (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : cond0_0 i) (hc1 : ¬cond0_1 i) (x0 : Vec F S512x2048 .f32) (x1 : Vec F S2048x128 .f32) (y : S512x1.Idx) :
    ∃ pc ∈ (kernelRun_A c i arg2 harg2 arg3 harg3 arg4 harg4 arg5 harg5 arg6 harg6 arg7 harg7 arg8 harg8 arg9 harg9 arg10 harg10 hc0 hc1 x0 x1).2.1, y ∈ pc.1.set :=
  View.cover_of_tiledL (kernelRun_A c i arg2 harg2 arg3 harg3 arg4 harg4 arg5 harg5 arg6 harg6 arg7 harg7 arg8 harg8 arg9 harg9 arg10 harg10 hc0 hc1 x0 x1).2.1 S512x1.size (by sl_kernel_rfl) y
/-- What case A leaves in the row-sum accumulator. -/
def sumA (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : cond0_0 i) (hc1 : ¬cond0_1 i) (x0 : Vec F S512x2048 .f32) (x1 : Vec F S2048x128 .f32) : Vec F S512x1 .f32 :=
  VSum.read (Elt F) (VSum.writes (Elt F) VSum.junk (kernelRun_A c i arg2 harg2 arg3 harg3 arg4 harg4 arg5 harg5 arg6 harg6 arg7 harg7 arg8 harg8 arg9 harg9 arg10 harg10 hc0 hc1 x0 x1).2.1)

/-- The pieces case B leaves in the aggregate accumulator tile it. -/
theorem coverAggB (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : ¬cond0_1 i) (x0 : Vec F S512x2048 .f32) (x1 : Vec F S2048x128 .f32) (xa : Vec F S512x128 .f32) (xs : Vec F S512x1 .f32) (y : S512x128.Idx) :
    ∃ pc ∈ (kernelRun_B c i arg2 harg2 arg3 harg3 arg4 harg4 arg5 harg5 arg6 harg6 arg7 harg7 arg8 harg8 arg9 harg9 arg10 harg10 hc0 hc1 x0 x1 xa xs).1, y ∈ pc.1.set :=
  View.cover_of_tiledL (kernelRun_B c i arg2 harg2 arg3 harg3 arg4 harg4 arg5 harg5 arg6 harg6 arg7 harg7 arg8 harg8 arg9 harg9 arg10 harg10 hc0 hc1 x0 x1 xa xs).1 S512x128.size (by sl_kernel_rfl) y
/-- What case B leaves in the aggregate accumulator: its pieces read back. -/
def aggB (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : ¬cond0_1 i) (x0 : Vec F S512x2048 .f32) (x1 : Vec F S2048x128 .f32) (xa : Vec F S512x128 .f32) (xs : Vec F S512x1 .f32) : Vec F S512x128 .f32 :=
  VAgg.read (Elt F) (VAgg.writes (Elt F) VAgg.junk (kernelRun_B c i arg2 harg2 arg3 harg3 arg4 harg4 arg5 harg5 arg6 harg6 arg7 harg7 arg8 harg8 arg9 harg9 arg10 harg10 hc0 hc1 x0 x1 xa xs).1)
/-- The pieces case B leaves in the row-sum accumulator tile it. -/
theorem coverSumB (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : ¬cond0_1 i) (x0 : Vec F S512x2048 .f32) (x1 : Vec F S2048x128 .f32) (xa : Vec F S512x128 .f32) (xs : Vec F S512x1 .f32) (y : S512x1.Idx) :
    ∃ pc ∈ (kernelRun_B c i arg2 harg2 arg3 harg3 arg4 harg4 arg5 harg5 arg6 harg6 arg7 harg7 arg8 harg8 arg9 harg9 arg10 harg10 hc0 hc1 x0 x1 xa xs).2.1, y ∈ pc.1.set :=
  View.cover_of_tiledL (kernelRun_B c i arg2 harg2 arg3 harg3 arg4 harg4 arg5 harg5 arg6 harg6 arg7 harg7 arg8 harg8 arg9 harg9 arg10 harg10 hc0 hc1 x0 x1 xa xs).2.1 S512x1.size (by sl_kernel_rfl) y
/-- What case B leaves in the row-sum accumulator. -/
def sumB (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : ¬cond0_1 i) (x0 : Vec F S512x2048 .f32) (x1 : Vec F S2048x128 .f32) (xa : Vec F S512x128 .f32) (xs : Vec F S512x1 .f32) : Vec F S512x1 .f32 :=
  VSum.read (Elt F) (VSum.writes (Elt F) VSum.junk (kernelRun_B c i arg2 harg2 arg3 harg3 arg4 harg4 arg5 harg5 arg6 harg6 arg7 harg7 arg8 harg8 arg9 harg9 arg10 harg10 hc0 hc1 x0 x1 xa xs).2.1)

/-- The pieces case C leaves in the aggregate accumulator tile it. -/
theorem coverAggC (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x2048 .f32) (x1 : Vec F S2048x128 .f32) (x2 : Vec F S512x128 .f32) (x3 : Vec F S512x1 .f32) (x4 : Vec F S128x128 .f32) (x5 : Vec F S1x128 .f32) (xa : Vec F S512x128 .f32) (xs : Vec F S512x1 .f32) (y : S512x128.Idx) :
    ∃ pc ∈ (kernelRun_C c i arg2 harg2 arg3 harg3 arg4 harg4 arg5 harg5 arg6 harg6 arg7 harg7 arg8 harg8 arg9 harg9 arg10 harg10 hc0 hc1 x0 x1 x2 x3 x4 x5 xa xs).2.1, y ∈ pc.1.set :=
  View.cover_of_tiledL (kernelRun_C c i arg2 harg2 arg3 harg3 arg4 harg4 arg5 harg5 arg6 harg6 arg7 harg7 arg8 harg8 arg9 harg9 arg10 harg10 hc0 hc1 x0 x1 x2 x3 x4 x5 xa xs).2.1 S512x128.size (by sl_kernel_rfl) y
/-- What case C leaves in the aggregate accumulator: its pieces read back. -/
def aggC (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x2048 .f32) (x1 : Vec F S2048x128 .f32) (x2 : Vec F S512x128 .f32) (x3 : Vec F S512x1 .f32) (x4 : Vec F S128x128 .f32) (x5 : Vec F S1x128 .f32) (xa : Vec F S512x128 .f32) (xs : Vec F S512x1 .f32) : Vec F S512x128 .f32 :=
  VAgg.read (Elt F) (VAgg.writes (Elt F) VAgg.junk (kernelRun_C c i arg2 harg2 arg3 harg3 arg4 harg4 arg5 harg5 arg6 harg6 arg7 harg7 arg8 harg8 arg9 harg9 arg10 harg10 hc0 hc1 x0 x1 x2 x3 x4 x5 xa xs).2.1)
/-- The pieces case C leaves in the row-sum accumulator tile it. -/
theorem coverSumC (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x2048 .f32) (x1 : Vec F S2048x128 .f32) (x2 : Vec F S512x128 .f32) (x3 : Vec F S512x1 .f32) (x4 : Vec F S128x128 .f32) (x5 : Vec F S1x128 .f32) (xa : Vec F S512x128 .f32) (xs : Vec F S512x1 .f32) (y : S512x1.Idx) :
    ∃ pc ∈ (kernelRun_C c i arg2 harg2 arg3 harg3 arg4 harg4 arg5 harg5 arg6 harg6 arg7 harg7 arg8 harg8 arg9 harg9 arg10 harg10 hc0 hc1 x0 x1 x2 x3 x4 x5 xa xs).2.2.1, y ∈ pc.1.set :=
  View.cover_of_tiledL (kernelRun_C c i arg2 harg2 arg3 harg3 arg4 harg4 arg5 harg5 arg6 harg6 arg7 harg7 arg8 harg8 arg9 harg9 arg10 harg10 hc0 hc1 x0 x1 x2 x3 x4 x5 xa xs).2.2.1 S512x1.size (by sl_kernel_rfl) y
/-- What case C leaves in the row-sum accumulator. -/
def sumC (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x2048 .f32) (x1 : Vec F S2048x128 .f32) (x2 : Vec F S512x128 .f32) (x3 : Vec F S512x1 .f32) (x4 : Vec F S128x128 .f32) (x5 : Vec F S1x128 .f32) (xa : Vec F S512x128 .f32) (xs : Vec F S512x1 .f32) : Vec F S512x1 .f32 :=
  VSum.read (Elt F) (VSum.writes (Elt F) VSum.junk (kernelRun_C c i arg2 harg2 arg3 harg3 arg4 harg4 arg5 harg5 arg6 harg6 arg7 harg7 arg8 harg8 arg9 harg9 arg10 harg10 hc0 hc1 x0 x1 x2 x3 x4 x5 xa xs).2.2.1)
/-- The one store of case C into the output window's buffer covers the block. -/
theorem coverOutC (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x2048 .f32) (x1 : Vec F S2048x128 .f32) (x2 : Vec F S512x128 .f32) (x3 : Vec F S512x1 .f32) (x4 : Vec F S128x128 .f32) (x5 : Vec F S1x128 .f32) (xa : Vec F S512x128 .f32) (xs : Vec F S512x1 .f32) (y : S512x128.Idx) :
    ∃ pc ∈ (kernelRun_C c i arg2 harg2 arg3 harg3 arg4 harg4 arg5 harg5 arg6 harg6 arg7 harg7 arg8 harg8 arg9 harg9 arg10 harg10 hc0 hc1 x0 x1 x2 x3 x4 x5 xa xs).1, y ∈ pc.1.set :=
  View.cover_of_tiledL (kernelRun_C c i arg2 harg2 arg3 harg3 arg4 harg4 arg5 harg5 arg6 harg6 arg7 harg7 arg8 harg8 arg9 harg9 arg10 harg10 hc0 hc1 x0 x1 x2 x3 x4 x5 xa xs).1 S512x128.size (by sl_kernel_rfl) y
/-- What case C leaves in the output window's buffer. -/
def outC (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x2048 .f32) (x1 : Vec F S2048x128 .f32) (x2 : Vec F S512x128 .f32) (x3 : Vec F S512x1 .f32) (x4 : Vec F S128x128 .f32) (x5 : Vec F S1x128 .f32) (xa : Vec F S512x128 .f32) (xs : Vec F S512x1 .f32) : Vec F S512x128 .f32 :=
  VO.read (Elt F) (VO.writes (Elt F) VO.junk (kernelRun_C c i arg2 harg2 arg3 harg3 arg4 harg4 arg5 harg5 arg6 harg6 arg7 harg7 arg8 harg8 arg9 harg9 arg10 harg10 hc0 hc1 x0 x1 x2 x3 x4 x5 xa xs).1)

/-- Off the last run the output window's buffer is not the body's to describe: a placeholder nothing consults. -/
def junkOut : Vec F S512x128 .f32 := VO.read (Elt F) (VO.writes (Elt F) VO.junk [])

/-! ## Point by point -/

/-- After the body at position n: the output window's buffer, the aggregate accumulator, the row-sum accumulator. -/
def outsAt (c : Dev nD) : (n : ℕ) → n < cfg0.N → Vec F S512x128 .f32 × Vec F S512x128 .f32 × Vec F S512x1 .f32
  | 0, hn => have h0 : (0 : ℕ) % 4 = 0 := Nat.zero_mod _
    (junkOut, aggA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scAgg (Memref.isWhole_whole _) scSum (Memref.isWhole_whole _) ((hcond0_0 ⟨0, hn⟩).mpr h0) (fun h => absurd ((hcond0_1 ⟨0, hn⟩).mp h) (by (try dsimp only); omega)) (iblk m c 0 ⟨0, hn⟩) (iblk m c 1 ⟨0, hn⟩), sumA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scAgg (Memref.isWhole_whole _) scSum (Memref.isWhole_whole _) ((hcond0_0 ⟨0, hn⟩).mpr h0) (fun h => absurd ((hcond0_1 ⟨0, hn⟩).mp h) (by (try dsimp only); omega)) (iblk m c 0 ⟨0, hn⟩) (iblk m c 1 ⟨0, hn⟩))
  | n + 1, hn =>
    if h0 : (n + 1) % 4 = 0 then
      (junkOut, aggA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scAgg (Memref.isWhole_whole _) scSum (Memref.isWhole_whole _) ((hcond0_0 ⟨n + 1, hn⟩).mpr h0) (fun h => absurd ((hcond0_1 ⟨n + 1, hn⟩).mp h) (by (try dsimp only); omega)) (iblk m c 0 ⟨n + 1, hn⟩) (iblk m c 1 ⟨n + 1, hn⟩), sumA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scAgg (Memref.isWhole_whole _) scSum (Memref.isWhole_whole _) ((hcond0_0 ⟨n + 1, hn⟩).mpr h0) (fun h => absurd ((hcond0_1 ⟨n + 1, hn⟩).mp h) (by (try dsimp only); omega)) (iblk m c 0 ⟨n + 1, hn⟩) (iblk m c 1 ⟨n + 1, hn⟩))
    else
      if h1 : (n + 1) % 4 = 3 then
        (outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scAgg (Memref.isWhole_whole _) scSum (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2, aggC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scAgg (Memref.isWhole_whole _) scSum (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2, sumC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scAgg (Memref.isWhole_whole _) scSum (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2)
      else
        (junkOut, aggB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scAgg (Memref.isWhole_whole _) scSum (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt c n (Nat.lt_of_succ_lt hn)).2.1 (outsAt c n (Nat.lt_of_succ_lt hn)).2.2, sumB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scAgg (Memref.isWhole_whole _) scSum (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt c n (Nat.lt_of_succ_lt hn)).2.1 (outsAt c n (Nat.lt_of_succ_lt hn)).2.2)

theorem outsAt_A (c : Dev nD) (t : Fin cfg0.N) (h0 : t.val % 4 = 0) :
    outsAt m c t.val t.isLt = (junkOut, aggA c (grid0.coords t) (ms0 t) (hs0 t) (ms1 t) (hs1 t) (ms2 t) (hs2 t) (ms3 t) (hs3 t) (ms4 t) (hs4 t) (ms5 t) (hs5 t) (ms6 t) (hs6 t) scAgg (Memref.isWhole_whole _) scSum (Memref.isWhole_whole _) ((hcond0_0 t).mpr h0) (fun h => absurd ((hcond0_1 t).mp h) (by (try dsimp only); omega)) (iblk m c 0 t) (iblk m c 1 t), sumA c (grid0.coords t) (ms0 t) (hs0 t) (ms1 t) (hs1 t) (ms2 t) (hs2 t) (ms3 t) (hs3 t) (ms4 t) (hs4 t) (ms5 t) (hs5 t) (ms6 t) (hs6 t) scAgg (Memref.isWhole_whole _) scSum (Memref.isWhole_whole _) ((hcond0_0 t).mpr h0) (fun h => absurd ((hcond0_1 t).mp h) (by (try dsimp only); omega)) (iblk m c 0 t) (iblk m c 1 t)) := by
  obtain ⟨n, hn⟩ := t
  cases n with
  | zero => exact rfl
  | succ n => exact (dif_pos h0).trans rfl

theorem outsAt_B (c : Dev nD) (t : Fin cfg0.N) (h0 : ¬t.val % 4 = 0) (h1 : ¬t.val % 4 = 3) :
    outsAt m c t.val t.isLt = (junkOut, aggB c (grid0.coords t) (ms0 t) (hs0 t) (ms1 t) (hs1 t) (ms2 t) (hs2 t) (ms3 t) (hs3 t) (ms4 t) (hs4 t) (ms5 t) (hs5 t) (ms6 t) (hs6 t) scAgg (Memref.isWhole_whole _) scSum (Memref.isWhole_whole _) (fun h => h0 ((hcond0_0 t).mp h)) (fun h => h1 ((hcond0_1 t).mp h)) (iblk m c 0 t) (iblk m c 1 t) (outsAt m c (t.val - 1) (Nat.lt_of_le_of_lt (Nat.sub_le _ _) t.isLt)).2.1 (outsAt m c (t.val - 1) (Nat.lt_of_le_of_lt (Nat.sub_le _ _) t.isLt)).2.2, sumB c (grid0.coords t) (ms0 t) (hs0 t) (ms1 t) (hs1 t) (ms2 t) (hs2 t) (ms3 t) (hs3 t) (ms4 t) (hs4 t) (ms5 t) (hs5 t) (ms6 t) (hs6 t) scAgg (Memref.isWhole_whole _) scSum (Memref.isWhole_whole _) (fun h => h0 ((hcond0_0 t).mp h)) (fun h => h1 ((hcond0_1 t).mp h)) (iblk m c 0 t) (iblk m c 1 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 4 = 0) (h1 : t.val % 4 = 3) :
    outsAt m c t.val t.isLt = (outC c (grid0.coords t) (ms0 t) (hs0 t) (ms1 t) (hs1 t) (ms2 t) (hs2 t) (ms3 t) (hs3 t) (ms4 t) (hs4 t) (ms5 t) (hs5 t) (ms6 t) (hs6 t) scAgg (Memref.isWhole_whole _) scSum (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2, aggC c (grid0.coords t) (ms0 t) (hs0 t) (ms1 t) (hs1 t) (ms2 t) (hs2 t) (ms3 t) (hs3 t) (ms4 t) (hs4 t) (ms5 t) (hs5 t) (ms6 t) (hs6 t) scAgg (Memref.isWhole_whole _) scSum (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2, sumC c (grid0.coords t) (ms0 t) (hs0 t) (ms1 t) (hs1 t) (ms2 t) (hs2 t) (ms3 t) (hs3 t) (ms4 t) (hs4 t) (ms5 t) (hs5 t) (ms6 t) (hs6 t) scAgg (Memref.isWhole_whole _) scSum (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The kernel's scoped buffers that no window stages are its two accumulators. -/
theorem scratch_eq (c : Dev nD) :
    (Pipeline.scopedRest (Ix := Unit) (Name := ℕ) (U := UR sig nD τ) (Lvl := ℕ) (Val := Elt F) spec0 c : sProp 𝕄)
      = iprop((∃ d, owns (c : Thread nD τ) scAgg fullShare d) ∗ (∃ d, owns (c : Thread nD τ) scSum fullShare d)) := by
  rw [scopedRest0_eq]; simp only [scAgg, scSum, owns_whole]; try rfl

/-- The region's invariant before position n: before the first point the accumulators hold anything; afterwards each
    holds what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scAgg fullShare ((outsAt m c n hn).2.1) ∗ owns (c : Thread nD τ) scSum fullShare ((outsAt m c n hn).2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scAgg fullShare ((outsAt m c n hn).2.1) ∗ owns (c : Thread nD τ) scSum fullShare ((outsAt m c n hn).2.2)) := rfl

theorem PhiS_pos (c : Dev nD) (n : ℕ) (h : n ≤ cfg0.N) (hz : n ≠ 0) :
    PhiS m c n h = iprop(owns (c : Thread nD τ) scAgg fullShare ((outsAt m c (n - 1) (by omega)).2.1) ∗ owns (c : Thread nD τ) scSum fullShare ((outsAt m c (n - 1) (by omega)).2.2)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d

end Cert.KernelIdeal.Hand

end
-- ==== Proof.IdealBody.lean ====
/-
  The body obligation of the region: at every one of the 64 points, handed the invariant and every window's current
  buffer at what the point finds there, the kernel's body runs and hands back the invariant for the next point and
  every buffer at what the proof data say it leaves.  The point's run number decides which of the three cases applies;
  a buffer the case does not touch is handed back as it was; the output window, idle off the last run, likewise.
-/
import proofs.«160938_j23098334118224_1_alg».proof.Proof.IdealCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  by_cases h0 : t.val % 4 = 0
  · have h1 : ¬t.val % 4 = 3 := by omega
    rw [Dat.leavesExact_idle (dats m 0 c) 6 t (idleAt6 t (fun h => h1 ((hcond0_1 t).mp h))) (noFlush6 t (fun h => h1 ((hcond0_1 t).mp h)))]
    rw [outsAt_A m c t h0]
    unfold aggA sumA; (try dsimp only)
    by_cases hz : t.val = 0
    · rw [PhiS_castSucc m c t, PhiS_zero m c _ _ hz, scratch_eq]
      iintro ⟨⟨HA, HS⟩, Ho, ⟨%d0, H0⟩, ⟨%d1, H1⟩, ⟨%d2, H2⟩, ⟨%d3, H3⟩, ⟨%d4, H4⟩, ⟨%d5, H5⟩, ⟨%d6, H6⟩⟩
      iapply ((kernelRun_A c (grid0.coords t) _ _ _ _ _ _ _ _ _ _ _ _ _ _ _ _ _ _ ((hcond0_0 t).mpr h0) (fun h => h1 ((hcond0_1 t).mp h)) (iblk m c 0 t) (iblk m c 1 t)).2.2 Set.univ _)
      isplitl [H0]; · iexact H0
      isplitl [H1]; · iexact H1
      isplitl [HA]; · iexact HA
      isplitl [HS]; · iexact HS
      iintro ⟨H0, H1, ⟨%ea, HA⟩, ⟨%es, HS⟩⟩
      isplitl [HA HS]
      · isplitl [HA]
        · unfold owns; iexists _; isplitr
          swap; · iexact HA
          ipureintro; exact View.read_writes_of_cover _ _ _ _ _ (coverAggA c _ _ _ _ _ _ _ _ _ _ _ _ _ _ _ _ _ _ _ _ _ _ _)
        · unfold owns; iexists _; isplitr
          swap; · iexact HS
          ipureintro; exact View.read_writes_of_cover _ _ _ _ _ (coverSumA c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨⟨HA, HS⟩, Ho, ⟨%d0, H0⟩, ⟨%d1, H1⟩, ⟨%d2, H2⟩, ⟨%d3, H3⟩, ⟨%d4, H4⟩, ⟨%d5, H5⟩, ⟨%d6, H6⟩⟩
      iapply ((kernelRun_A c (grid0.coords t) _ _ _ _ _ _ _ _ _ _ _ _ _ _ _ _ _ _ ((hcond0_0 t).mpr h0) (fun h => h1 ((hcond0_1 t).mp h)) (iblk m c 0 t) (iblk m c 1 t)).2.2 Set.univ _)
      isplitl [H0]; · iexact H0
      isplitl [H1]; · iexact H1
      isplitl [HA]; · iexists _; iexact HA
      isplitl [HS]; · iexists _; iexact HS
      iintro ⟨H0, H1, ⟨%ea, HA⟩, ⟨%es, HS⟩⟩
      isplitl [HA HS]
      · isplitl [HA]
        · unfold owns; iexists _; isplitr
          swap; · iexact HA
          ipureintro; exact View.read_writes_of_cover _ _ _ _ _ (coverAggA c _ _ _ _ _ _ _ _ _ _ _ _ _ _ _ _ _ _ _ _ _ _ _)
        · unfold owns; iexists _; isplitr
          swap; · iexact HS
          ipureintro; exact View.read_writes_of_cover _ _ _ _ _ (coverSumA c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 4 = 3
    · rw [show (dats m 0 c).leavesExact 6 t = owns (c : Thread nD τ) (ms6 t) fullShare ((dats m 0 c).after 6 t) from by
        unfold Dat.leavesExact; rw [liveAt6 t ((hcond0_1 t).mpr h1)], after6]
      rw [outsAt_C m c t h0 h1]
      unfold outC aggC sumC; (try dsimp only)
      rw [PhiS_castSucc m c t, PhiS_pos m c _ _ hz]
      iintro ⟨⟨HA, HS⟩, Ho, ⟨%d0, H0⟩, ⟨%d1, H1⟩, ⟨%d2, H2⟩, ⟨%d3, H3⟩, ⟨%d4, H4⟩, ⟨%d5, H5⟩, ⟨%d6, H6⟩⟩
      iapply ((kernelRun_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HA]; · iexact HA
      isplitl [HS]; · iexact HS
      iintro ⟨H0, H1, H2, H3, H4, H5, ⟨%eo, H6⟩, ⟨%ea, HA⟩, ⟨%es, HS⟩⟩
      isplitl [HA HS]
      · isplitl [HA]
        · unfold owns; iexists _; isplitr
          swap; · iexact HA
          ipureintro; exact View.read_writes_of_cover _ _ _ _ _ (coverAggC c _ _ _ _ _ _ _ _ _ _ _ _ _ _ _ _ _ _ _ _ _ _ _ _ _ _ _ _ _)
        · unfold owns; iexists _; isplitr
          swap; · iexact HS
          ipureintro; exact View.read_writes_of_cover _ _ _ _ _ (coverSumC c _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverOutC c _ _ _ _ _ _ _ _ _ _ _ _ _ _ _ _ _ _ _ _ _ _ _ _ _ _ _ _ _)
    · rw [Dat.leavesExact_idle (dats m 0 c) 6 t (idleAt6 t (fun h => h1 ((hcond0_1 t).mp h))) (noFlush6 t (fun h => h1 ((hcond0_1 t).mp h)))]
      rw [outsAt_B m c t h0 h1]
      unfold aggB sumB; (try dsimp only)
      rw [PhiS_castSucc m c t, PhiS_pos m c _ _ hz]
      iintro ⟨⟨HA, HS⟩, Ho, ⟨%d0, H0⟩, ⟨%d1, H1⟩, ⟨%d2, H2⟩, ⟨%d3, H3⟩, ⟨%d4, H4⟩, ⟨%d5, H5⟩, ⟨%d6, H6⟩⟩
      iapply ((kernelRun_B c (grid0.coords t) _ _ _ _ _ _ _ _ _ _ _ _ _ _ _ _ _ _ (fun h => h0 ((hcond0_0 t).mp h)) (fun h => h1 ((hcond0_1 t).mp h)) (iblk m c 0 t) (iblk m c 1 t) _ _).2.2 Set.univ _)
      isplitl [H0]; · iexact H0
      isplitl [H1]; · iexact H1
      isplitl [HA]; · iexact HA
      isplitl [HS]; · iexact HS
      iintro ⟨H0, H1, ⟨%ea, HA⟩, ⟨%es, HS⟩⟩
      isplitl [HA HS]
      · isplitl [HA]
        · unfold owns; iexists _; isplitr
          swap; · iexact HA
          ipureintro; exact View.read_writes_of_cover _ _ _ _ _ (coverAggB c _ _ _ _ _ _ _ _ _ _ _ _ _ _ _ _ _ _ _ _ _ _ _ _ _)
        · unfold owns; iexists _; isplitr
          swap; · iexact HS
          ipureintro; exact View.read_writes_of_cover _ _ _ _ _ (coverSumB c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region — the accumulators at anything — is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulators back at whatever they hold. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scratch_eq]
  iintro ⟨HA, HS⟩
  isplitl [HA]
  · iexists _; iexact HA
  · iexists _; iexact HS

end Cert.KernelIdeal.Hand

end
-- ==== Proof.IdealLaunch.lean ====
/-
  The region's launch and the frame.

  The launch hands the region each distinct array whole.  Six arrays stand behind the seven windows: the feature array
  x is read through two of them (the neighbours' block and the row block).  Its full share is split into its two
  halves, one per window; every other array goes to its one window whole.  With the body obligation this gives the run
  of the whole program: it terminates without a fault, every window's array ends at what the proof data compute (an
  input array as it was, the output array overwritten block by block by what each last run stored), and every other
  buffer as the region found it.  Read at the five argument arrays, that is the frame.
-/
import proofs.«160938_j23098334118224_1_alg».proof.Proof.IdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data's arrays with each window's array a whole buffer. -/
theorem arrays_whole (c : Dev nD) (X : (w : Fin cfg0.W) → Buf (Elt F) ((cfg0.win w).arr.view.loc (c.tc : Thread nD τ))) :
    (dats m 0 c).arrays X = bigSep Finset.univ fun w : Fin cfg0.W =>
      (((c.tc : Thread nD τ).loc (Pipeline.arrRef spec0 w)) ↦{(dats m 0 c).share w} X w : sProp 𝕄) := by
  unfold Dat.arrays
  exact bigSep_congr fun w _ => by rw [(arr_whole0 w).set_eq_univ]

theorem share0 (c : Dev nD) : (dats m 0 c).share 0 = fullShare := rfl
theorem share1 (c : Dev nD) : (dats m 0 c).share 1 = fullShare.left := rfl
theorem share2 (c : Dev nD) : (dats m 0 c).share 2 = fullShare.right := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl

theorem arrAt_zero (c : Dev nD) (w : Fin cfg0.W) : (dats m 0 c).arrAt w 0 = V m c (Pipeline.arrRef spec0 w) :=
  (show (dats m 0 c).arrAt w 0 = (dats m 0 c).A w from rfl).trans (A_eq m c w)

/-- The distinct buffers behind the seven windows' arrays are six. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_arg1) ↦{fullShare} V m c main_arg1) ∗ (((c.tc : Thread nD τ).loc main_arg0) ↦{fullShare} V m c main_arg0)
          ∗ (((c.tc : Thread nD τ).loc main_v0) ↦{fullShare} V m c main_v0) ∗ (((c.tc : Thread nD τ).loc main_arg2) ↦{fullShare} V m c main_arg2)
          ∗ (((c.tc : Thread nD τ).loc main_v1) ↦{fullShare} V m c main_v1) ∗ (((c.tc : Thread nD τ).loc main_v2) ↦{fullShare} V m c main_v2)) :=
  bigSep_eq_bigSepL_of_eq [main_arg1, main_arg0, main_v0, main_arg2, main_v1, main_v2] (by decide) (by decide) _

/-- The six distinct arrays, each whole at the full share, make the seven windows' arrays: x is dealt in halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_whole, bigSep_W0]
  simp only [arrAt_zero, share0, share1, share2, share3, share4, share5, share6]
  rw [arrBufs_eq]
  iintro ⟨H1, H0, Hv0, H2, Hv1, Hv2⟩
  ihave H0' := (pointsTo_share (PosShare.mem_left_op_right fullShare)).1 $$ H0
  icases H0' with ⟨H0l, H0r⟩
  isplitl [H1]; · iexact H1
  isplitl [H0l]; · iexact H0l
  isplitl [H0r]; · iexact H0r
  isplitl [Hv0]; · iexact Hv0
  isplitl [H2]; · iexact H2
  isplitl [Hv1]; · iexact Hv1
  iexact Hv2

set_option backward.isDefEq.respectTransparency.types false in
/-- Every weakly fair execution of the program terminates without a fault; every window's array ends at what the
    proof data compute from the body's stores, every other unscoped buffer as the region found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => (show _ ⊢ (Pipeline.scopedRest (Ix := Unit) (Name := ℕ) (U := UR sig nD τ) (Lvl := ℕ) (Val := Elt F) spec0 c : sProp 𝕄) from by iintro ⟨-, HR⟩; iexact HR).trans (hin m c))
    (hout := fun c => (hout m c).trans (by
      iintro HR
      isplitr; · iempintro
      iexact HR))
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The run read at the result and the argument arrays: the result is the output window's array after all 64 points,
    each argument array is as launched. -/
theorem run_result : θ_run defs (onTc (τ := τ) (main (F := F))) ⟨m, fun _ => 0, ρ⟩ (fun r => ∀ c : Dev nD,
      r.2.mem ((c.tc : Thread nD τ).loc main_v2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 6,
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 4).trans (((dats m 0 c).arrAt_in 4 rfl _).trans ((A_eq m c 4).trans (V_main_arg2 m c))),
      ((h c).2 main_arg3 (Pipeline.mem_restRefs_of main_arg3 rfl (by decide))).trans (V_main_arg3 m c),
      ((h c).2 main_arg4 (Pipeline.mem_restRefs_of main_arg4 rfl (by decide))).trans (V_main_arg4 m c)⟩) (run_main m ρ)

/-- THE FRAME: the program runs to the end, faults nowhere, and leaves its five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_result m ρ)

end Cert.KernelIdeal.Hand

end
-- ==== Proof.Pieces.lean ====
/-
  What each control case leaves in the buffers it writes, as the stored values themselves.

  Every store of the body writes a whole buffer, so what a buffer holds afterwards is the value of its last store;
  and every load reads a whole buffer, so it reads either an input block as given or, of an accumulator, the value
  the store before it left.  At a first run each accumulator is first set to zeros and that is what the update reads;
  at a middle or last run the update reads what the run before left; at a last run the finishing step reads both
  accumulators as the update has just stored them.
-/
import proofs.«160938_j23098334118224_1_alg».proof.Proof.IdealCases
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, as a constant function. -/
theorem hz : (![0, 0] : Fin 2 → Nat) = fun _ => 0 := funext fun a => by fin_cases a <;> rfl

/-- First run, aggregate accumulator: the zero block is stored and read back, and the run's products are added to it. -/
theorem aggA_eq (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : cond0_0 i) (hc1 : ¬cond0_1 i) (x0 : Vec F S512x2048 .f32) (x1 : Vec F S2048x128 .f32) :
    aggA c i arg2 harg2 arg3 harg3 arg4 harg4 arg5 harg5 arg6 harg6 arg7 harg7 arg8 harg8 arg9 harg9 arg10 harg10 hc0 hc1 x0 x1 = k0_pay3 x0 x1 (k0_pay1 (F := F)) := by
  unfold aggA
  rw [View.read_writes_eq_canon _ _ _ (coverAggA c i arg2 harg2 arg3 harg3 arg4 harg4 arg5 harg5 arg6 harg6 arg7 harg7 arg8 harg8 arg9 harg9 arg10 harg10 hc0 hc1 x0 x1)]
  unfold kernelRun_A
  dsimp only
  sl_unfold_words
  rw [View.canon_cons_unit_zero (S := S512x128) hz, View.readCov_unit_zero (S := S512x128) _ hz]
  simp only [View.readAt_eq_ld, harg2.read_unread, harg3.read_unread, View.ld_unit_zero (S := S512x2048) hz, View.ld_unit_zero (S := S2048x128) hz]

/-- First run, row-sum accumulator: the zero column is stored and read back, and the run's row sums are added to it. -/
theorem sumA_eq (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : cond0_0 i) (hc1 : ¬cond0_1 i) (x0 : Vec F S512x2048 .f32) (x1 : Vec F S2048x128 .f32) :
    sumA c i arg2 harg2 arg3 harg3 arg4 harg4 arg5 harg5 arg6 harg6 arg7 harg7 arg8 harg8 arg9 harg9 arg10 harg10 hc0 hc1 x0 x1 = k0_pay4 x0 (k0_pay2 (F := F)) := by
  unfold sumA
  rw [View.read_writes_eq_canon _ _ _ (coverSumA c i arg2 harg2 arg3 harg3 arg4 harg4 arg5 harg5 arg6 harg6 arg7 harg7 arg8 harg8 arg9 harg9 arg10 harg10 hc0 hc1 x0 x1)]
  unfold kernelRun_A
  dsimp only
  sl_unfold_words
  rw [View.canon_cons_unit_zero (S := S512x1) hz, View.readCov_unit_zero (S := S512x1) _ hz]
  simp only [View.readAt_eq_ld, harg2.read_unread, View.ld_unit_zero (S := S512x2048) hz]

/-- Middle run, aggregate accumulator: the run's products are added to what the run before left. -/
theorem aggB_eq (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : ¬cond0_1 i) (x0 : Vec F S512x2048 .f32) (x1 : Vec F S2048x128 .f32) (xa : Vec F S512x128 .f32) (xs : Vec F S512x1 .f32) :
    aggB c i arg2 harg2 arg3 harg3 arg4 harg4 arg5 harg5 arg6 harg6 arg7 harg7 arg8 harg8 arg9 harg9 arg10 harg10 hc0 hc1 x0 x1 xa xs = k0_pay3 x0 x1 xa := by
  unfold aggB
  rw [View.read_writes_eq_canon _ _ _ (coverAggB c i arg2 harg2 arg3 harg3 arg4 harg4 arg5 harg5 arg6 harg6 arg7 harg7 arg8 harg8 arg9 harg9 arg10 harg10 hc0 hc1 x0 x1 xa xs)]
  unfold kernelRun_B
  dsimp only
  rw [View.canon_unit_zero hz]
  simp only [View.readAt_eq_ld, harg2.read_unread, harg3.read_unread, harg9.read_unread, View.ld_unit_zero (S := S512x2048) hz, View.ld_unit_zero (S := S2048x128) hz, View.ld_unit_zero (S := S512x128) hz]

/-- Middle run, row-sum accumulator: the run's row sums are added to what the run before left. -/
theorem sumB_eq (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : ¬cond0_1 i) (x0 : Vec F S512x2048 .f32) (x1 : Vec F S2048x128 .f32) (xa : Vec F S512x128 .f32) (xs : Vec F S512x1 .f32) :
    sumB c i arg2 harg2 arg3 harg3 arg4 harg4 arg5 harg5 arg6 harg6 arg7 harg7 arg8 harg8 arg9 harg9 arg10 harg10 hc0 hc1 x0 x1 xa xs = k0_pay4 x0 xs := by
  unfold sumB
  rw [View.read_writes_eq_canon _ _ _ (coverSumB c i arg2 harg2 arg3 harg3 arg4 harg4 arg5 harg5 arg6 harg6 arg7 harg7 arg8 harg8 arg9 harg9 arg10 harg10 hc0 hc1 x0 x1 xa xs)]
  unfold kernelRun_B
  dsimp only
  rw [View.canon_unit_zero hz]
  simp only [View.readAt_eq_ld, harg2.read_unread, harg10.read_unread, View.ld_unit_zero (S := S512x2048) hz, View.ld_unit_zero (S := S512x1) hz]

/-- Last run, aggregate accumulator: as at a middle run. -/
theorem aggC_eq (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x2048 .f32) (x1 : Vec F S2048x128 .f32) (x2 : Vec F S512x128 .f32) (x3 : Vec F S512x1 .f32) (x4 : Vec F S128x128 .f32) (x5 : Vec F S1x128 .f32) (xa : Vec F S512x128 .f32) (xs : Vec F S512x1 .f32) :
    aggC c i arg2 harg2 arg3 harg3 arg4 harg4 arg5 harg5 arg6 harg6 arg7 harg7 arg8 harg8 arg9 harg9 arg10 harg10 hc0 hc1 x0 x1 x2 x3 x4 x5 xa xs = k0_pay3 x0 x1 xa := by
  unfold aggC
  rw [View.read_writes_eq_canon _ _ _ (coverAggC c i arg2 harg2 arg3 harg3 arg4 harg4 arg5 harg5 arg6 harg6 arg7 harg7 arg8 harg8 arg9 harg9 arg10 harg10 hc0 hc1 x0 x1 x2 x3 x4 x5 xa xs)]
  unfold kernelRun_C
  dsimp only
  sl_unfold_words
  rw [View.canon_unit_zero hz]
  simp only [View.readAt_eq_ld, harg2.read_unread, harg3.read_unread, harg9.read_unread, View.ld_unit_zero (S := S512x2048) hz, View.ld_unit_zero (S := S2048x128) hz, View.ld_unit_zero (S := S512x128) hz]

/-- Last run, row-sum accumulator: as at a middle run. -/
theorem sumC_eq (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x2048 .f32) (x1 : Vec F S2048x128 .f32) (x2 : Vec F S512x128 .f32) (x3 : Vec F S512x1 .f32) (x4 : Vec F S128x128 .f32) (x5 : Vec F S1x128 .f32) (xa : Vec F S512x128 .f32) (xs : Vec F S512x1 .f32) :
    sumC c i arg2 harg2 arg3 harg3 arg4 harg4 arg5 harg5 arg6 harg6 arg7 harg7 arg8 harg8 arg9 harg9 arg10 harg10 hc0 hc1 x0 x1 x2 x3 x4 x5 xa xs = k0_pay4 x0 xs := by
  unfold sumC
  rw [View.read_writes_eq_canon _ _ _ (coverSumC c i arg2 harg2 arg3 harg3 arg4 harg4 arg5 harg5 arg6 harg6 arg7 harg7 arg8 harg8 arg9 harg9 arg10 harg10 hc0 hc1 x0 x1 x2 x3 x4 x5 xa xs)]
  unfold kernelRun_C
  dsimp only
  sl_unfold_words
  rw [View.canon_unit_zero hz]
  simp only [View.readAt_eq_ld, harg2.read_unread, harg10.read_unread, View.ld_unit_zero (S := S512x2048) hz, View.ld_unit_zero (S := S512x1) hz]

/-- Last run, output block: the finishing step reads both accumulators as just stored, the self weights, the row
    block of features, the dense weights and the bias row. -/
theorem outC_eq (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x1 .f32) (harg10 : arg10.IsWhole) (hc0 : ¬cond0_0 i) (hc1 : cond0_1 i) (x0 : Vec F S512x2048 .f32) (x1 : Vec F S2048x128 .f32) (x2 : Vec F S512x128 .f32) (x3 : Vec F S512x1 .f32) (x4 : Vec F S128x128 .f32) (x5 : Vec F S1x128 .f32) (xa : Vec F S512x128 .f32) (xs : Vec F S512x1 .f32) :
    outC c i arg2 harg2 arg3 harg3 arg4 harg4 arg5 harg5 arg6 harg6 arg7 harg7 arg8 harg8 arg9 harg9 arg10 harg10 hc0 hc1 x0 x1 x2 x3 x4 x5 xa xs = k0_pay5 x3 (k0_pay3 x0 x1 xa) x2 (k0_pay4 x0 xs) x4 x5 := by
  unfold outC
  rw [View.read_writes_eq_canon _ _ _ (coverOutC c i arg2 harg2 arg3 harg3 arg4 harg4 arg5 harg5 arg6 harg6 arg7 harg7 arg8 harg8 arg9 harg9 arg10 harg10 hc0 hc1 x0 x1 x2 x3 x4 x5 xa xs)]
  unfold kernelRun_C
  dsimp only
  sl_unfold_words
  rw [View.canon_unit_zero hz, View.readCov_unit_zero (S := S512x128) _ hz, View.readCov_unit_zero (S := S512x1) _ hz]
  simp only [View.readAt_eq_ld, harg2.read_unread, harg3.read_unread, harg4.read_unread, harg5.read_unread, harg6.read_unread, harg7.read_unread, harg9.read_unread, harg10.read_unread, View.ld_unit_zero (S := S512x2048) hz, View.ld_unit_zero (S := S2048x128) hz, View.ld_unit_zero (S := S512x128) hz, View.ld_unit_zero (S := S512x1) hz, View.ld_unit_zero (S := S128x128) hz, View.ld_unit_zero (S := S1x128) hz]

end Cert.KernelIdeal.Hand

end
-- ==== Proof.Spec.lean ====
/-
  The graph-convolution layer as ONE function of its five argument arrays, index by index, on the extended reals.

  For a row p and an output feature o,
      out (p, o) = ( sum over f of  invdeg p * agg (p, f) * w (f, o) )  +  bias o
  where
      degree p   = ( sum over j of adj (p, j) ) + beta p,          invdeg p = 1 / degree p   (the exact quotient),
      agg (p, f) = ( sum over j of adj (p, j) * x (j, f) ) + beta p * x (p, f).

  Both programs compute exactly this; they differ only in how the two sums over the 8192 neighbours j are grouped:
  the reference takes each in one piece, the kernel in four consecutive runs of 2048 accumulated one after another.
  Regrouping a finite sum needs only that addition is commutative and associative, which holds on the extended
  reals without any finiteness assumption ("tiles_sum" below).
-/
import Idealize.ShloMosaic.PureOps.Ideal
import Idealize.ShloMosaic.Lib.ValueIdx

noncomputable section

open scoped BigOperators

namespace Cert.Gcn

open Idealize.ShloMosaic Idealize.ShloMosaic.ValueIdx

/-- The arrays' shapes, spelt as literals so that every coordinate has a literal bound. -/
abbrev SX : Shape := ⟨2, ![8192, 128]⟩
abbrev SAdj : Shape := ⟨2, ![8192, 8192]⟩
abbrev SW : Shape := ⟨2, ![128, 128]⟩
abbrev SBias : Shape := ⟨1, ![128]⟩
abbrev SBeta : Shape := ⟨1, ![8192]⟩

/-- The float word of 1.0, kept as a word: it is the same word in both programs and is never evaluated. -/
abbrev one : EReal := Ideal.ofBits .f32 0x3F800000#32

/-- The degree of row p: the sum of its adjacency row plus its self weight. -/
def degree (adj : FVec Ideal SAdj .f32) (beta : FVec Ideal SBeta .f32) (p : Fin 8192) : EReal :=
  (∑ j : Fin 8192, adj (ix2 p j)) + beta (ix1 p)

/-- The aggregated features of row p at input feature f: the neighbours' features weighted by the adjacency row,
    plus the row's own features weighted by its self weight. -/
def agg (x : FVec Ideal SX .f32) (adj : FVec Ideal SAdj .f32) (beta : FVec Ideal SBeta .f32) (p : Fin 8192) (f : Fin 128) : EReal :=
  (∑ j : Fin 8192, adj (ix2 p j) * x (ix2 j f)) + beta (ix1 p) * x (ix2 p f)

/-- The normalised aggregate: the exact quotient 1 / degree times the aggregate. -/
def pre (x : FVec Ideal SX .f32) (adj : FVec Ideal SAdj .f32) (beta : FVec Ideal SBeta .f32) (p : Fin 8192) (f : Fin 128) : EReal :=
  Ideal.div one (degree adj beta p) * agg x adj beta p f

/-- The layer's output at (p, o): the normalised aggregate through the dense transform, plus the bias. -/
def out (x : FVec Ideal SX .f32) (adj : FVec Ideal SAdj .f32) (w : FVec Ideal SW .f32) (bias : FVec Ideal SBias .f32)
    (beta : FVec Ideal SBeta .f32) (p : Fin 8192) (o : Fin 128) : EReal :=
  (∑ f : Fin 128, pre x adj beta p f * w (ix2 f o)) + bias (ix1 o)

/-- The whole output array. -/
def G (x : FVec Ideal SX .f32) (adj : FVec Ideal SAdj .f32) (w : FVec Ideal SW .f32) (bias : FVec Ideal SBias .f32)
    (beta : FVec Ideal SBeta .f32) : FVec Ideal SX .f32 :=
  fun i => out x adj w bias beta (i 0) (i 1)

theorem G_ix2 (x : FVec Ideal SX .f32) (adj : FVec Ideal SAdj .f32) (w : FVec Ideal SW .f32) (bias : FVec Ideal SBias .f32)
    (beta : FVec Ideal SBeta .f32) (p : Fin 8192) (o : Fin 128) : G x adj w bias beta (ix2 p o) = out x adj w bias beta p o := rfl

/-- Neighbour l of run k, among the 8192: position 2048 * k + l. -/
def nb (k : Fin 4) (l : Fin 2048) : Fin 8192 := ⟨2048 * k.val + l.val, by have := k.isLt; have := l.isLt; omega⟩

/-- A sum over the 8192 neighbours is the sum, over the four consecutive runs of 2048, of the runs' sums: a finite
    sum in a commutative monoid may be regrouped freely. -/
theorem tiles_sum {M : Type*} [AddCommMonoid M] (g : Fin 8192 → M) :
    ∑ j : Fin 8192, g j = ∑ k : Fin 4, ∑ l : Fin 2048, g (nb k l) := by
  rw [← Fintype.sum_prod_type']
  refine (Fintype.sum_equiv (finProdFinEquiv (m := 4) (n := 2048)) _ _ fun kl => ?_).symm
  refine congrArg g (Fin.ext ?_)
  show 2048 * kl.1.val + kl.2.val = kl.2.val + 2048 * kl.1.val
  omega

/-- The four runs accumulated one after another from zero, as the kernel does, give the whole sum. -/
theorem tiles_acc {M : Type*} [AddCommMonoid M] (t : Fin 4 → M) :
    (((0 + t 0) + t 1) + t 2) + t 3 = ∑ k : Fin 4, t k := by
  rw [Fin.sum_univ_four, zero_add]

end Cert.Gcn

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Blocks.lean ====
/-
  The kernel's six input blocks, each read at one index of the argument array it is cut from.

  The grid has 16 x 4 points; point t = 4 * i + k is row block i (512 rows) at run k (2048 neighbours).  A block's entry
  at a coordinate inside the block is the array's entry at block index * block size + that coordinate, axis by axis:
    * the adjacency block is rows 512 i + r, columns 2048 k + l of the adjacency matrix;
    * the neighbours' feature block is rows 2048 k + l of the feature matrix, the row block's own is rows 512 i + r;
    * the self-weight block is entries 512 i + r of the self weights, recast beforehand as a column;
    * the dense weights and the bias (recast beforehand as a row) are taken whole at every point.
-/
import proofs.«160938_j23098334118224_1_alg».proof.Proof.IdealShared
import proofs.«160938_j23098334118224_1_alg».proof.Proof.Spec
import proofs.«160938_j23098334118224_1_alg».proof.Proof.LibKeepdims
import Idealize.ShloMosaic.Lib.ValueIdx
import Idealize.ShloMosaic.Lib.ValueLayout
import Idealize.ShloMosaic.Lib.Pipeline.Value
import Idealize.ShloMosaic.Lib.StableHlo.Run

noncomputable section

namespace Cert.Gcn.Blk

open Idealize.ShloMosaic Idealize.ShloMosaic.TcCoe Idealize.SL.Sem Idealize.ShloMosaic.ValueIdx
open Cert.KernelIdeal Cert.KernelIdeal.Gen Cert.KernelIdeal.Hand

variable {F : FTy → Type} [FloatOps F] (m : (ℓ : Loc nD τ sig) → Buf (Elt F) ℓ)

/-- Row r of row block i, among the 8192 rows. -/
def rowOf (i : Fin 16) (r : Fin 512) : Fin 8192 := ⟨512 * i.val + r.val, by have := i.isLt; have := r.isLt; omega⟩

/-! ## Each window's block index over the 64 points: row block t / 4, run t % 4 -/

theorem idx0 : ∀ t : Fin cfg0.N, win0_0.index t (0 : Fin 2) = t.val / 4 ∧ win0_0.index t (1 : Fin 2) = t.val % 4 :=
  (by decide +kernel : ∀ t : Fin grid0.N, win0_0.index t (0 : Fin 2) = t.val / 4 ∧ win0_0.index t (1 : Fin 2) = t.val % 4)
theorem idx1 : ∀ t : Fin cfg0.N, win0_1.index t (0 : Fin 2) = t.val % 4 ∧ win0_1.index t (1 : Fin 2) = 0 :=
  (by decide +kernel : ∀ t : Fin grid0.N, win0_1.index t (0 : Fin 2) = t.val % 4 ∧ win0_1.index t (1 : Fin 2) = 0)
theorem idx2 : ∀ t : Fin cfg0.N, win0_2.index t (0 : Fin 2) = t.val / 4 ∧ win0_2.index t (1 : Fin 2) = 0 :=
  (by decide +kernel : ∀ t : Fin grid0.N, win0_2.index t (0 : Fin 2) = t.val / 4 ∧ win0_2.index t (1 : Fin 2) = 0)
theorem idx3 : ∀ t : Fin cfg0.N, win0_3.index t (0 : Fin 2) = t.val / 4 ∧ win0_3.index t (1 : Fin 2) = 0 :=
  (by decide +kernel : ∀ t : Fin grid0.N, win0_3.index t (0 : Fin 2) = t.val / 4 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-! ## The blocks cut from an argument array as launched -/

/-- The adjacency block at point 4 i + k: rows of row block i, columns of run k. -/
theorem adj_blk (c : Dev nD) (t : Fin cfg0.N) (i : Fin 16) (k : Fin 4) (ht : t.val = 4 * i.val + k.val) (r : Fin 512) (l : Fin 2048) :
    (iblk m c 0 t : Vec F S512x2048 .f32) (ix2 r l) = m ((c : Thread nD τ).loc main_arg1) (ix2 (rowOf i r) (Cert.Gcn.nb k l)) := by
  have hi := idx0 t
  have hk := k.isLt
  unfold iblk
  rw [View.read_apply]
  show V m c main_arg1 _ = _
  rw [V_main_arg1]
  refine congrArg _ (funext fun a => Fin.ext ?_)
  match a with
  | ⟨0, _⟩ =>
    show win0_0.index t 0 * 512 + 1 * r.val = 512 * i.val + r.val
    rw [hi.1]; omega
  | ⟨1, _⟩ =>
    show win0_0.index t 1 * 2048 + 1 * l.val = 2048 * k.val + l.val
    rw [hi.2]; omega

/-- The neighbours' feature block at point 4 i + k: the rows of run k, every feature. -/
theorem xcol_blk (c : Dev nD) (t : Fin cfg0.N) (i : Fin 16) (k : Fin 4) (ht : t.val = 4 * i.val + k.val) (l : Fin 2048) (f : Fin 128) :
    (iblk m c 1 t : Vec F S2048x128 .f32) (ix2 l f) = m ((c : Thread nD τ).loc main_arg0) (ix2 (Cert.Gcn.nb k l) f) := by
  have hi := idx1 t
  have hk := k.isLt
  unfold iblk
  rw [View.read_apply]
  show V m c main_arg0 _ = _
  rw [V_main_arg0]
  refine congrArg _ (funext fun a => Fin.ext ?_)
  match a with
  | ⟨0, _⟩ =>
    show win0_1.index t 0 * 2048 + 1 * l.val = 2048 * k.val + l.val
    rw [hi.1]; omega
  | ⟨1, _⟩ =>
    show win0_1.index t 1 * 128 + 1 * f.val = f.val
    rw [hi.2]; omega

/-- The row block's own feature block at point 4 i + k: the rows of row block i, every feature. -/
theorem xrow_blk (c : Dev nD) (t : Fin cfg0.N) (i : Fin 16) (k : Fin 4) (ht : t.val = 4 * i.val + k.val) (r : Fin 512) (f : Fin 128) :
    (iblk m c 2 t : Vec F S512x128 .f32) (ix2 r f) = m ((c : Thread nD τ).loc main_arg0) (ix2 (rowOf i r) f) := by
  have hi := idx2 t
  have hk := k.isLt
  unfold iblk
  rw [View.read_apply]
  show V m c main_arg0 _ = _
  rw [V_main_arg0]
  refine congrArg _ (funext fun a => Fin.ext ?_)
  match a with
  | ⟨0, _⟩ =>
    show win0_2.index t 0 * 512 + 1 * r.val = 512 * i.val + r.val
    rw [hi.1]; omega
  | ⟨1, _⟩ =>
    show win0_2.index t 1 * 128 + 1 * f.val = f.val
    rw [hi.2]; omega

/-- The dense weights, whole at every point. -/
theorem w_blk (c : Dev nD) (t : Fin cfg0.N) (f o : Fin 128) :
    (iblk m c 4 t : Vec F S128x128 .f32) (ix2 f o) = m ((c : Thread nD τ).loc main_arg2) (ix2 f o) := by
  have hi := idx4 t
  unfold iblk
  rw [View.read_apply]
  show V m c main_arg2 _ = _
  rw [V_main_arg2]
  refine congrArg _ (funext fun a => Fin.ext ?_)
  match a with
  | ⟨0, _⟩ =>
    show win0_4.index t 0 * 128 + 1 * f.val = f.val
    rw [hi.1]; omega
  | ⟨1, _⟩ =>
    show win0_4.index t 1 * 128 + 1 * o.val = o.val
    rw [hi.2]; omega

/-! ## The two blocks cut from a recast argument -/

/-- The self weights as the region finds them: the argument [8192] recast as a column [8192, 1]. -/
theorem V_main_v0 (c : Dev nD) :
    (V m c main_v0 : S8192x1.Idx → F .f32)
      = shapeCast S8192x1 (m ((c : Thread nD τ).loc main_arg4) : S8192.Idx → F .f32) shapeCasts_S8192_S8192x1 := by
  dsimp only [V, hostOps0]; after_results; rfl

/-- The bias as the region finds it: the argument [128] recast as a row [1, 128]. -/
theorem V_main_v1 (c : Dev nD) :
    (V m c main_v1 : S1x128.Idx → F .f32)
      = shapeCast S1x128 (m ((c : Thread nD τ).loc main_arg3) : S128.Idx → F .f32) shapeCasts_S128_S1x128 := by
  dsimp only [V, hostOps0]; after_results; rfl

/-- The self-weight block at point 4 i + k: the entries of row block i. -/
theorem beta_blk (c : Dev nD) (t : Fin cfg0.N) (i : Fin 16) (k : Fin 4) (ht : t.val = 4 * i.val + k.val) (r : Fin 512) (u : Fin 1) :
    (iblk m c 3 t : Vec F S512x1 .f32) (ix2 r u) = m ((c : Thread nD τ).loc main_arg4) (ix1 (rowOf i r)) := by
  have hi := idx3 t
  have hk := k.isLt
  have hu : u.val = 0 := by omega
  unfold iblk
  rw [View.read_apply]
  show (V m c main_v0 : S8192x1.Idx → F .f32) _ = _
  rw [V_main_v0]
  refine Eq.trans (congrArg _ (funext fun a => Fin.ext ?_))
    (Cert.LibKeepdims.shapeCast_a_a1_apply _ shapeCasts_S8192_S8192x1 (rowOf i r) (0 : Fin 1))
  match a with
  | ⟨0, _⟩ =>
    show win0_3.index t 0 * 512 + 1 * r.val = 512 * i.val + r.val
    rw [hi.1]; omega
  | ⟨1, _⟩ =>
    show win0_3.index t 1 * 1 + 1 * u.val = 0
    rw [hi.2]; omega

/-- The bias, whole at every point. -/
theorem bias_blk (c : Dev nD) (t : Fin cfg0.N) (u : Fin 1) (o : Fin 128) :
    (iblk m c 5 t : Vec F S1x128 .f32) (ix2 u o) = m ((c : Thread nD τ).loc main_arg3) (ix1 o) := by
  have hi := idx5 t
  have hu : u.val = 0 := by omega
  unfold iblk
  rw [View.read_apply]
  show (V m c main_v1 : S1x128.Idx → F .f32) _ = _
  rw [V_main_v1]
  refine Eq.trans (congrArg _ (funext fun a => Fin.ext ?_))
    (shapeCast_a_1a_apply _ shapeCasts_S128_S1x128 (0 : Fin 1) o)
  match a with
  | ⟨0, _⟩ =>
    show win0_5.index t 0 * 1 + 1 * u.val = 0
    rw [hi.1]; omega
  | ⟨1, _⟩ =>
    show win0_5.index t 1 * 128 + 1 * o.val = o.val
    rw [hi.2]; omega

end Cert.Gcn.Blk

end
-- ==== Proof.Payloads.lean ====
/-
  The five values the graph-convolution kernel stores, each read at one index (row r, column c) on the extended reals.

  * The two accumulators start as the zero array.
  * One step of the feature accumulator adds, to what it held, the product of the adjacency tile's row r with the
    feature tile's column f: a sum over the tile's 2048 neighbours (the narrowing of both factors is the identity on
    the extended reals, and the product unit accumulates into zero).
  * One step of the degree accumulator adds, to what it held, the sum of the adjacency tile's row r.
  * The last step divides: with s = beta r the row's self weight, the row's normalised aggregate at input feature f is
    (1 / (deg r + s)) * (acc (r, f) + s * x (r, f)), and the stored output at (r, o) is its product with column o of the
    dense weights, summed over the 128 input features, plus the bias at o.

  The only operations that are not pointwise are the two matrix products (each a sum over its one contracted axis), the
  row sum, and the layout changes (a vector recast as a column, a column or a row broadcast over a matrix); each gets
  one lemma at a coordinate index, and the five statements chain them.
-/
import proofs.«160938_j23098334118224_1_alg».proof.Proof.Gen.KernelIdeal.Skeleton
import proofs.«160938_j23098334118224_1_alg».proof.Proof.Spec
import proofs.«160938_j23098334118224_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Gcn.Pay

open Idealize.ShloMosaic Idealize.ShloMosaic.ValueIdx Cert.KernelIdeal Cert.KernelIdeal.Gen

/-! ## The two zero accumulators -/

/-- The feature accumulator's initial value is the zero array. -/
theorem pay1_apply (r : Fin 512) (f : Fin 128) : k0_pay1 (F := Ideal) (ix2 r f) = 0 := by
  unfold k0_pay1
  rw [shapeCast_self]
  exact Ideal.ofBits_zero_f32

/-- The degree accumulator's initial value is the zero column. -/
theorem pay2_apply (r : Fin 512) (u : Fin 1) : k0_pay2 (F := Ideal) (ix2 r u) = 0 := by
  unfold k0_pay2
  rw [shapeCast_self]
  exact Ideal.ofBits_zero_f32

/-! ## The row sum of the adjacency tile -/

/-- The sum over axis 1 of a [512, 2048] array, read at row r, is the sum of that row's 2048 entries. -/
theorem rowsum_apply (v : FVec Ideal S512x2048 .f32) (hφ : FKind.Formats .f32)
    (hacc : (0x00000000#32 : BitVec 32) = 0x00000000#32) (r : Fin 512) :
    multiReduction (F := Ideal) .add [1] S512 v 0x00000000#32 reduces_S512x2048_S512 hφ hacc (ix1 r)
      = ∑ l : Fin 2048, v (ix2 r l) := by
  refine (Ideal.multiReduction_add_single v 0x00000000#32 reduces_S512x2048_S512 hφ hacc (ix1 r)).trans ?_
  refine Finset.sum_congr rfl fun l _ => ?_
  refine congrArg v (funext fun a => Fin.ext ?_)
  match a with
  | ⟨0, _⟩ => rfl
  | ⟨1, _⟩ => rfl

/-- One step of the degree accumulator: what it held plus the row sum of the adjacency tile. -/
theorem pay4_apply (v3 : Vec Ideal S512x2048 .f32) (v13 : Vec Ideal S512x1 .f32) (r : Fin 512) (u : Fin 1) :
    k0_pay4 (F := Ideal) v3 v13 (ix2 r u) = v13 (ix2 r u) + ∑ l : Fin 2048, v3 (ix2 r l) := by
  unfold k0_pay4
  rw [shapeCast_self, addf_apply, Cert.LibKeepdims.shapeCast_a_a1_apply]
  exact congrArg (v13 (ix2 r u) + ·) (rowsum_apply v3 _ _ r)

/-! ## The two matrix products into the zero accumulator

For each product, first the operand indices of output index i and contraction index q, coordinate by coordinate (the left
operand is read at (i 0, q), the right at (q, i 1)); then the product at (r, c) as the sum over the contracted axis. -/

theorem lhsA_0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide),
    dif_pos (show (0 : Fin S512x2048.rank) ∈ dot_S512x2048_S2048x128_S512x128_1_0_0_1_n_n.lhsNonContracting by decide)]
  rfl
theorem lhsA_1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
theorem rhsA_0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
theorem rhsA_1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide),
    dif_pos (show (1 : Fin S2048x128.rank) ∈ dot_S512x2048_S2048x128_S512x128_1_0_0_1_n_n.rhsNonContracting by decide)]
  rfl

/-- The adjacency tile [512, 2048] times the feature tile [2048, 128], accumulated into zero, read at (r, c): the sum
    over the tile's 2048 neighbours k of adjacency (r, k) times features (k, c). -/
theorem matmulA_apply {φ₁ φ₂ : FTy} (a : FVec Ideal S512x2048 φ₁) (b : FVec Ideal S2048x128 φ₂) (r : Fin 512) (c : Fin 128) :
    matmul (F := Ideal) dot_S512x2048_S2048x128_S512x128_1_0_0_1_n_n none a b (constant (F := Ideal) S512x128 .f32 0x00000000#32) (ix2 r c)
      = ∑ k : Fin 2048, a (ix2 r k) * b (ix2 k c) := by
  simp only [matmul]
  rw [Ideal.matmul_constant_zero_apply,
    ← Equiv.sum_comp (contrEquiv1 dot_S512x2048_S2048x128_S512x128_1_0_0_1_n_n 2048 rfl rfl).symm]
  refine Finset.sum_congr rfl fun k _ => ?_
  have hk := contrEquiv1_symm_val dot_S512x2048_S2048x128_S512x128_1_0_0_1_n_n 2048 rfl rfl k
  have el : dot_S512x2048_S2048x128_S512x128_1_0_0_1_n_n.lhsIdx (ix2 r c)
      ((contrEquiv1 dot_S512x2048_S2048x128_S512x128_1_0_0_1_n_n 2048 rfl rfl).symm k) = ix2 r k :=
    funext fun ax => Fin.ext (by
      match ax with
      | ⟨0, _⟩ => exact lhsA_0 _ _
      | ⟨1, _⟩ => exact (lhsA_1 _ _).trans hk)
  have er : dot_S512x2048_S2048x128_S512x128_1_0_0_1_n_n.rhsIdx (ix2 r c)
      ((contrEquiv1 dot_S512x2048_S2048x128_S512x128_1_0_0_1_n_n 2048 rfl rfl).symm k) = ix2 k c :=
    funext fun ax => Fin.ext (by
      match ax with
      | ⟨0, _⟩ => exact (rhsA_0 _ _).trans hk
      | ⟨1, _⟩ => exact rhsA_1 _ _)
  rw [el, er]

theorem lhsW_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide),
    dif_pos (show (0 : Fin S512x128.rank) ∈ dot_S512x128_S128x128_S512x128_1_0_0_1_n_n.lhsNonContracting by decide)]
  rfl
theorem lhsW_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem rhsW_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem rhsW_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide),
    dif_pos (show (1 : Fin S128x128.rank) ∈ dot_S512x128_S128x128_S512x128_1_0_0_1_n_n.rhsNonContracting by decide)]
  rfl

/-- The normalised aggregate [512, 128] times the dense weights [128, 128], accumulated into zero, read at (r, c): the
    sum over the 128 input features k of aggregate (r, k) times weights (k, c). -/
theorem matmulW_apply {φ₁ φ₂ : FTy} (a : FVec Ideal S512x128 φ₁) (b : FVec Ideal S128x128 φ₂) (r : Fin 512) (c : Fin 128) :
    matmul (F := Ideal) dot_S512x128_S128x128_S512x128_1_0_0_1_n_n none a b (constant (F := Ideal) S512x128 .f32 0x00000000#32) (ix2 r c)
      = ∑ k : Fin 128, a (ix2 r k) * b (ix2 k c) := by
  simp only [matmul]
  rw [Ideal.matmul_constant_zero_apply,
    ← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 r c)
      ((contrEquiv1 dot_S512x128_S128x128_S512x128_1_0_0_1_n_n 128 rfl rfl).symm k) = ix2 r k :=
    funext fun ax => Fin.ext (by
      match ax with
      | ⟨0, _⟩ => exact lhsW_0 _ _
      | ⟨1, _⟩ => exact (lhsW_1 _ _).trans hk)
  have er : dot_S512x128_S128x128_S512x128_1_0_0_1_n_n.rhsIdx (ix2 r c)
      ((contrEquiv1 dot_S512x128_S128x128_S512x128_1_0_0_1_n_n 128 rfl rfl).symm k) = ix2 k c :=
    funext fun ax => Fin.ext (by
      match ax with
      | ⟨0, _⟩ => exact (rhsW_0 _ _).trans hk
      | ⟨1, _⟩ => exact rhsW_1 _ _)
  rw [el, er]

/-! ## The accumulator steps and the final value -/

/-- One step of the feature accumulator: what it held plus the adjacency tile's row times the feature tile's column. -/
theorem pay3_apply (v3 : Vec Ideal S512x2048 .f32) (v5 : Vec Ideal S2048x128 .f32) (v7 : Vec Ideal S512x128 .f32)
    (r : Fin 512) (f : Fin 128) :
    k0_pay3 (F := Ideal) v3 v5 v7 (ix2 r f) = v7 (ix2 r f) + ∑ l : Fin 2048, v3 (ix2 r l) * v5 (ix2 l f) := by
  unfold k0_pay3
  rw [shapeCast_self, addf_apply]
  refine congrArg (v7 (ix2 r f) + ·) ?_
  exact (matmulA_apply _ _ r f).trans (Finset.sum_congr rfl fun l _ => rfl)

/-- The stored output: with s the row's self weight, the normalised aggregate (1 / (deg + s)) * (acc + s * x) of row r
    through the dense weights' column o, plus the bias at o. -/
theorem pay5_apply (v23 : Vec Ideal S512x1 .f32) (v25 : Vec Ideal S512x128 .f32) (v26 : Vec Ideal S512x128 .f32)
    (v30 : Vec Ideal S512x1 .f32) (v37 : Vec Ideal S128x128 .f32) (v40 : Vec Ideal S1x128 .f32) (r : Fin 512) (o : Fin 128) :
    k0_pay5 (F := Ideal) v23 v25 v26 v30 v37 v40 (ix2 r o)
      = (∑ f : Fin 128, (Ideal.div Cert.Gcn.one (v30 (ix2 r (0 : Fin 1)) + v23 (ix2 r (0 : Fin 1)))
            * (v25 (ix2 r f) + v23 (ix2 r (0 : Fin 1)) * v26 (ix2 r f))) * v37 (ix2 f o))
        + v40 (ix2 (0 : Fin 1) o) := by
  unfold k0_pay5
  simp only [shapeCast_self]
  refine (addf_apply _ _ _).trans ?_
  refine congrArg₂ (· + ·) ?_ (broadcastTo_1b_ab_apply v40 _ r o)
  refine (matmulW_apply _ _ r o).trans (Finset.sum_congr rfl fun f _ => ?_)
  refine congrArg (· * v37 (ix2 f o)) ?_
  rw [truncf_apply, mulf_apply, addf_apply, mulf_apply, Cert.LibKeepdims.broadcastTo_a1_ab_apply,
    Cert.LibKeepdims.broadcastTo_a1_ab_apply]
  rfl

end Cert.Gcn.Pay

end
-- ==== Proof.KernelIsSpec.lean ====
/-
  The kernel's output array after the run is the layer's output function of the five argument arrays.

  Fix a row block i (rows 512 i … 512 i + 511).  Its four points are the runs k = 0, 1, 2, 3 over the neighbours
  2048 k … 2048 k + 2047.  After run k the aggregate accumulator holds, at (r, f), the sum over the runs so far of
  each run's share  S k = sum over the run's neighbours j of adj (row, j) * x (j, f),  accumulated in order from zero:
  0 + S 0, then + S 1, + S 2, + S 3; the row-sum accumulator likewise with  R k = sum over the run's neighbours of
  adj (row, j).  After the last run these are the whole sums over all 8192 neighbours (a finite sum regrouped), so what
  the last run stores into the output block is exactly the layer's formula at row 512 i + r: the quotient
  1 / (row sum + self weight) times (aggregate + self weight * own features), through the dense transform, plus the
  bias.  Each last run writes its row block back; the 16 row blocks tile the output array.
-/
import proofs.«160938_j23098334118224_1_alg».proof.Proof.IdealLaunch
import proofs.«160938_j23098334118224_1_alg».proof.Proof.Pieces
import proofs.«160938_j23098334118224_1_alg».proof.Proof.Blocks
import proofs.«160938_j23098334118224_1_alg».proof.Proof.Payloads
import Idealize.ShloMosaic.Lib.Pipeline.Value

set_option maxRecDepth 16384

noncomputable section

open scoped BigOperators

namespace Cert.Gcn.Ker

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.Gcn Cert.Gcn.Blk

/-! ## What the accumulators and the output buffer hold after a point, as the stored values (any float instance) -/

section AnyInstance

variable {F : FTy → Type} [FloatOps F]
variable (m : (ℓ : Loc nD τ sig) → Buf (Elt F) ℓ) (c : Dev nD)

theorem first_agg (t : Fin cfg0.N) (h0 : t.val % 4 = 0) :
    (outsAt m c t.val t.isLt).2.1 = k0_pay3 (iblk m c 0 t) (iblk m c 1 t) (k0_pay1 (F := F)) := by
  have e : aggA c (grid0.coords t) (ms0 t) (hs0 t) (ms1 t) (hs1 t) (ms2 t) (hs2 t) (ms3 t) (hs3 t) (ms4 t) (hs4 t) (ms5 t) (hs5 t) (ms6 t) (hs6 t) scAgg (Memref.isWhole_whole _) scSum (Memref.isWhole_whole _) ((hcond0_0 t).mpr h0) (fun h => absurd ((hcond0_1 t).mp h) (by omega)) (iblk m c 0 t) (iblk m c 1 t)
      = k0_pay3 (iblk m c 0 t) (iblk m c 1 t) (k0_pay1 (F := F)) :=
    aggA_eq c (grid0.coords t) (ms0 t) (hs0 t) (ms1 t) (hs1 t) (ms2 t) (hs2 t) (ms3 t) (hs3 t) (ms4 t) (hs4 t) (ms5 t) (hs5 t) (ms6 t) (hs6 t) scAgg (Memref.isWhole_whole _) scSum (Memref.isWhole_whole _) ((hcond0_0 t).mpr h0) (fun h => absurd ((hcond0_1 t).mp h) (by omega)) (iblk m c 0 t) (iblk m c 1 t)
  rw [outsAt_A m c t h0]
  exact e

theorem first_sum (t : Fin cfg0.N) (h0 : t.val % 4 = 0) :
    (outsAt m c t.val t.isLt).2.2 = k0_pay4 (iblk m c 0 t) (k0_pay2 (F := F)) := by
  have e : sumA c (grid0.coords t) (ms0 t) (hs0 t) (ms1 t) (hs1 t) (ms2 t) (hs2 t) (ms3 t) (hs3 t) (ms4 t) (hs4 t) (ms5 t) (hs5 t) (ms6 t) (hs6 t) scAgg (Memref.isWhole_whole _) scSum (Memref.isWhole_whole _) ((hcond0_0 t).mpr h0) (fun h => absurd ((hcond0_1 t).mp h) (by omega)) (iblk m c 0 t) (iblk m c 1 t)
      = k0_pay4 (iblk m c 0 t) (k0_pay2 (F := F)) :=
    sumA_eq c (grid0.coords t) (ms0 t) (hs0 t) (ms1 t) (hs1 t) (ms2 t) (hs2 t) (ms3 t) (hs3 t) (ms4 t) (hs4 t) (ms5 t) (hs5 t) (ms6 t) (hs6 t) scAgg (Memref.isWhole_whole _) scSum (Memref.isWhole_whole _) ((hcond0_0 t).mpr h0) (fun h => absurd ((hcond0_1 t).mp h) (by omega)) (iblk m c 0 t) (iblk m c 1 t)
  rw [outsAt_A m c t h0]
  exact e

set_option maxHeartbeats 2000000 in
theorem later_agg (t : Fin cfg0.N) (h0 : ¬t.val % 4 = 0) :
    (outsAt m c t.val t.isLt).2.1 = k0_pay3 (iblk m c 0 t) (iblk m c 1 t) (outsAt m c (t.val - 1) (Nat.lt_of_le_of_lt (Nat.sub_le _ _) t.isLt)).2.1 := by
  by_cases h1 : t.val % 4 = 3
  · have e : aggC c (grid0.coords t) (ms0 t) (hs0 t) (ms1 t) (hs1 t) (ms2 t) (hs2 t) (ms3 t) (hs3 t) (ms4 t) (hs4 t) (ms5 t) (hs5 t) (ms6 t) (hs6 t) scAgg (Memref.isWhole_whole _) scSum (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2
        = k0_pay3 (iblk m c 0 t) (iblk m c 1 t) (outsAt m c (t.val - 1) (Nat.lt_of_le_of_lt (Nat.sub_le _ _) t.isLt)).2.1 :=
      aggC_eq c (grid0.coords t) (ms0 t) (hs0 t) (ms1 t) (hs1 t) (ms2 t) (hs2 t) (ms3 t) (hs3 t) (ms4 t) (hs4 t) (ms5 t) (hs5 t) (ms6 t) (hs6 t) scAgg (Memref.isWhole_whole _) scSum (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2
    rw [outsAt_C m c t h0 h1]
    exact e
  · have e : aggB c (grid0.coords t) (ms0 t) (hs0 t) (ms1 t) (hs1 t) (ms2 t) (hs2 t) (ms3 t) (hs3 t) (ms4 t) (hs4 t) (ms5 t) (hs5 t) (ms6 t) (hs6 t) scAgg (Memref.isWhole_whole _) scSum (Memref.isWhole_whole _) (fun h => h0 ((hcond0_0 t).mp h)) (fun h => h1 ((hcond0_1 t).mp h)) (iblk m c 0 t) (iblk m c 1 t) (outsAt m c (t.val - 1) (Nat.lt_of_le_of_lt (Nat.sub_le _ _) t.isLt)).2.1 (outsAt m c (t.val - 1) (Nat.lt_of_le_of_lt (Nat.sub_le _ _) t.isLt)).2.2
        = k0_pay3 (iblk m c 0 t) (iblk m c 1 t) (outsAt m c (t.val - 1) (Nat.lt_of_le_of_lt (Nat.sub_le _ _) t.isLt)).2.1 :=
      aggB_eq c (grid0.coords t) (ms0 t) (hs0 t) (ms1 t) (hs1 t) (ms2 t) (hs2 t) (ms3 t) (hs3 t) (ms4 t) (hs4 t) (ms5 t) (hs5 t) (ms6 t) (hs6 t) scAgg (Memref.isWhole_whole _) scSum (Memref.isWhole_whole _) (fun h => h0 ((hcond0_0 t).mp h)) (fun h => h1 ((hcond0_1 t).mp h)) (iblk m c 0 t) (iblk m c 1 t) (outsAt m c (t.val - 1) (Nat.lt_of_le_of_lt (Nat.sub_le _ _) t.isLt)).2.1 (outsAt m c (t.val - 1) (Nat.lt_of_le_of_lt (Nat.sub_le _ _) t.isLt)).2.2
    have h := congrArg (fun p => p.2.1) (outsAt_B m c t h0 h1)
    dsimp only at h
    exact h.trans e

theorem later_sum (t : Fin cfg0.N) (h0 : ¬t.val % 4 = 0) :
    (outsAt m c t.val t.isLt).2.2 = k0_pay4 (iblk m c 0 t) (outsAt m c (t.val - 1) (Nat.lt_of_le_of_lt (Nat.sub_le _ _) t.isLt)).2.2 := by
  by_cases h1 : t.val % 4 = 3
  · have e : sumC c (grid0.coords t) (ms0 t) (hs0 t) (ms1 t) (hs1 t) (ms2 t) (hs2 t) (ms3 t) (hs3 t) (ms4 t) (hs4 t) (ms5 t) (hs5 t) (ms6 t) (hs6 t) scAgg (Memref.isWhole_whole _) scSum (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2
        = k0_pay4 (iblk m c 0 t) (outsAt m c (t.val - 1) (Nat.lt_of_le_of_lt (Nat.sub_le _ _) t.isLt)).2.2 :=
      sumC_eq c (grid0.coords t) (ms0 t) (hs0 t) (ms1 t) (hs1 t) (ms2 t) (hs2 t) (ms3 t) (hs3 t) (ms4 t) (hs4 t) (ms5 t) (hs5 t) (ms6 t) (hs6 t) scAgg (Memref.isWhole_whole _) scSum (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2
    rw [outsAt_C m c t h0 h1]
    exact e
  · have e : sumB c (grid0.coords t) (ms0 t) (hs0 t) (ms1 t) (hs1 t) (ms2 t) (hs2 t) (ms3 t) (hs3 t) (ms4 t) (hs4 t) (ms5 t) (hs5 t) (ms6 t) (hs6 t) scAgg (Memref.isWhole_whole _) scSum (Memref.isWhole_whole _) (fun h => h0 ((hcond0_0 t).mp h)) (fun h => h1 ((hcond0_1 t).mp h)) (iblk m c 0 t) (iblk m c 1 t) (outsAt m c (t.val - 1) (Nat.lt_of_le_of_lt (Nat.sub_le _ _) t.isLt)).2.1 (outsAt m c (t.val - 1) (Nat.lt_of_le_of_lt (Nat.sub_le _ _) t.isLt)).2.2
        = k0_pay4 (iblk m c 0 t) (outsAt m c (t.val - 1) (Nat.lt_of_le_of_lt (Nat.sub_le _ _) t.isLt)).2.2 :=
      sumB_eq c (grid0.coords t) (ms0 t) (hs0 t) (ms1 t) (hs1 t) (ms2 t) (hs2 t) (ms3 t) (hs3 t) (ms4 t) (hs4 t) (ms5 t) (hs5 t) (ms6 t) (hs6 t) scAgg (Memref.isWhole_whole _) scSum (Memref.isWhole_whole _) (fun h => h0 ((hcond0_0 t).mp h)) (fun h => h1 ((hcond0_1 t).mp h)) (iblk m c 0 t) (iblk m c 1 t) (outsAt m c (t.val - 1) (Nat.lt_of_le_of_lt (Nat.sub_le _ _) t.isLt)).2.1 (outsAt m c (t.val - 1) (Nat.lt_of_le_of_lt (Nat.sub_le _ _) t.isLt)).2.2
    exact (congrArg (fun p => p.2.2) (outsAt_B m c t h0 h1)).trans e

/-- At a last run the stored output is the finishing value of the two accumulators AS THE RUN LEAVES THEM. -/
theorem last_out (t : Fin cfg0.N) (h0 : ¬t.val % 4 = 0) (h1 : t.val % 4 = 3) :
    (outsAt m c t.val t.isLt).1 = k0_pay5 (iblk m c 3 t) (outsAt m c t.val t.isLt).2.1 (iblk m c 2 t) (outsAt m c t.val t.isLt).2.2 (iblk m c 4 t) (iblk m c 5 t) := by
  have e : outC c (grid0.coords t) (ms0 t) (hs0 t) (ms1 t) (hs1 t) (ms2 t) (hs2 t) (ms3 t) (hs3 t) (ms4 t) (hs4 t) (ms5 t) (hs5 t) (ms6 t) (hs6 t) scAgg (Memref.isWhole_whole _) scSum (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2
      = k0_pay5 (iblk m c 3 t) (k0_pay3 (iblk m c 0 t) (iblk m c 1 t) (outsAt m c (t.val - 1) (Nat.lt_of_le_of_lt (Nat.sub_le _ _) t.isLt)).2.1) (iblk m c 2 t) (k0_pay4 (iblk m c 0 t) (outsAt m c (t.val - 1) (Nat.lt_of_le_of_lt (Nat.sub_le _ _) t.isLt)).2.2) (iblk m c 4 t) (iblk m c 5 t) :=
    outC_eq c (grid0.coords t) (ms0 t) (hs0 t) (ms1 t) (hs1 t) (ms2 t) (hs2 t) (ms3 t) (hs3 t) (ms4 t) (hs4 t) (ms5 t) (hs5 t) (ms6 t) (hs6 t) scAgg (Memref.isWhole_whole _) scSum (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2
  rw [later_agg m c t h0, later_sum m c t h0]
  rw [outsAt_C m c t h0 h1]
  exact e

end AnyInstance

/-! ## On the extended reals -/

variable (m : (ℓ : Loc nD τ sig) → Buf (Elt Ideal) ℓ) (ρ : Dev nD → PrngReg) (c : Dev nD)

/-- The five argument arrays as launched. -/
abbrev aX : FVec Ideal SX .f32 := m ((c : Thread nD τ).loc main_arg0)
abbrev aAdj : FVec Ideal SAdj .f32 := m ((c : Thread nD τ).loc main_arg1)
abbrev aW : FVec Ideal SW .f32 := m ((c : Thread nD τ).loc main_arg2)
abbrev aBias : FVec Ideal SBias .f32 := m ((c : Thread nD τ).loc main_arg3)
abbrev aBeta : FVec Ideal SBeta .f32 := m ((c : Thread nD τ).loc main_arg4)

/-- Run k's share of the aggregate of row r of row block i at feature f, and of its row sum. -/
def S (i : Fin 16) (k : Fin 4) (r : Fin 512) (f : Fin 128) : EReal :=
  ∑ l : Fin 2048, aAdj m c (ix2 (rowOf i r) (nb k l)) * aX m c (ix2 (nb k l) f)
def R (i : Fin 16) (k : Fin 4) (r : Fin 512) : EReal :=
  ∑ l : Fin 2048, aAdj m c (ix2 (rowOf i r) (nb k l))

theorem agg_first (t : Fin cfg0.N) (i : Fin 16) (ht : t.val = 4 * i.val + (0 : Fin 4).val) (r : Fin 512) (f : Fin 128) :
    (outsAt m c t.val t.isLt).2.1 (ix2 r f) = 0 + S m c i 0 r f := by
  have h0 : t.val % 4 = 0 := by have : (0 : Fin 4).val = 0 := rfl; omega
  rw [first_agg m c t h0]
  refine (Pay.pay3_apply (iblk m c 0 t) (iblk m c 1 t) _ r f).trans ?_
  rw [Pay.pay1_apply]
  refine congrArg (0 + ·) (Finset.sum_congr rfl fun l _ => ?_)
  rw [adj_blk m c t i 0 ht r l, xcol_blk m c t i 0 ht l f]

theorem sum_first (t : Fin cfg0.N) (i : Fin 16) (ht : t.val = 4 * i.val + (0 : Fin 4).val) (r : Fin 512) (u : Fin 1) :
    (outsAt m c t.val t.isLt).2.2 (ix2 r u) = 0 + R m c i 0 r := by
  have h0 : t.val % 4 = 0 := by have : (0 : Fin 4).val = 0 := rfl; omega
  rw [first_sum m c t h0]
  refine (Pay.pay4_apply (iblk m c 0 t) _ r u).trans ?_
  rw [Pay.pay2_apply]
  refine congrArg (0 + ·) (Finset.sum_congr rfl fun l _ => ?_)
  rw [adj_blk m c t i 0 ht r l]

theorem agg_later (t : Fin cfg0.N) (i : Fin 16) (k : Fin 4) (ht : t.val = 4 * i.val + k.val) (hk : k.val ≠ 0) (r : Fin 512) (f : Fin 128) :
    (outsAt m c t.val t.isLt).2.1 (ix2 r f) = (outsAt m c (t.val - 1) (Nat.lt_of_le_of_lt (Nat.sub_le _ _) t.isLt)).2.1 (ix2 r f) + S m c i k r f := by
  have h0 : ¬t.val % 4 = 0 := by have := k.isLt; omega
  rw [later_agg m c t h0]
  refine (Pay.pay3_apply (iblk m c 0 t) (iblk m c 1 t) _ r f).trans ?_
  refine congrArg (_ + ·) (Finset.sum_congr rfl fun l _ => ?_)
  rw [adj_blk m c t i k ht r l, xcol_blk m c t i k ht l f]

theorem sum_later (t : Fin cfg0.N) (i : Fin 16) (k : Fin 4) (ht : t.val = 4 * i.val + k.val) (hk : k.val ≠ 0) (r : Fin 512) (u : Fin 1) :
    (outsAt m c t.val t.isLt).2.2 (ix2 r u) = (outsAt m c (t.val - 1) (Nat.lt_of_le_of_lt (Nat.sub_le _ _) t.isLt)).2.2 (ix2 r u) + R m c i k r := by
  have h0 : ¬t.val % 4 = 0 := by have := k.isLt; omega
  rw [later_sum m c t h0]
  refine (Pay.pay4_apply (iblk m c 0 t) _ r u).trans ?_
  refine congrArg (_ + ·) (Finset.sum_congr rfl fun l _ => ?_)
  rw [adj_blk m c t i k ht r l]

/-- After the last run of row block i the aggregate accumulator holds the whole sum over the 8192 neighbours. -/
theorem agg_full (t : Fin cfg0.N) (i : Fin 16) (ht : t.val = 4 * i.val + 3) (r : Fin 512) (f : Fin 128) :
    (outsAt m c t.val t.isLt).2.1 (ix2 r f) = ∑ j : Fin 8192, aAdj m c (ix2 (rowOf i r) j) * aX m c (ix2 j f) := by
  have hN : cfg0.N = 64 := N_0
  have hlt := t.isLt
  have e3 := agg_later m c t i 3 ht (by decide) r f
  have e2 := agg_later m c ⟨t.val - 1, by omega⟩ i 2 (by show t.val - 1 = 4 * i.val + 2; omega) (by decide) r f
  have e1 := agg_later m c ⟨t.val - 1 - 1, by omega⟩ i 1 (by show t.val - 1 - 1 = 4 * i.val + 1; omega) (by decide) r f
  have e0 := agg_first m c ⟨t.val - 1 - 1 - 1, by omega⟩ i (by show t.val - 1 - 1 - 1 = 4 * i.val + 0; omega) r f
  dsimp only at e2 e1 e0
  rw [e3, e2, e1, e0]
  exact (tiles_acc (fun k => S m c i k r f)).trans (tiles_sum fun j => aAdj m c (ix2 (rowOf i r) j) * aX m c (ix2 j f)).symm

theorem sum_full (t : Fin cfg0.N) (i : Fin 16) (ht : t.val = 4 * i.val + 3) (r : Fin 512) (u : Fin 1) :
    (outsAt m c t.val t.isLt).2.2 (ix2 r u) = ∑ j : Fin 8192, aAdj m c (ix2 (rowOf i r) j) := by
  have hN : cfg0.N = 64 := N_0
  have hlt := t.isLt
  have e3 := sum_later m c t i 3 ht (by decide) r u
  have e2 := sum_later m c ⟨t.val - 1, by omega⟩ i 2 (by show t.val - 1 = 4 * i.val + 2; omega) (by decide) r u
  have e1 := sum_later m c ⟨t.val - 1 - 1, by omega⟩ i 1 (by show t.val - 1 - 1 = 4 * i.val + 1; omega) (by decide) r u
  have e0 := sum_first m c ⟨t.val - 1 - 1 - 1, by omega⟩ i (by show t.val - 1 - 1 - 1 = 4 * i.val + 0; omega) r u
  dsimp only at e2 e1 e0
  rw [e3, e2, e1, e0]
  exact (tiles_acc (fun k => R m c i k r)).trans (tiles_sum fun j => aAdj m c (ix2 (rowOf i r) j)).symm

/-- What the last run of row block i stores at (r, o) is the layer's output at row 512 i + r. -/
theorem out_full (t : Fin cfg0.N) (i : Fin 16) (ht : t.val = 4 * i.val + 3) (r : Fin 512) (o : Fin 128) :
    (outsAt m c t.val t.isLt).1 (ix2 r o) = out (aX m c) (aAdj m c) (aW m c) (aBias m c) (aBeta m c) (rowOf i r) o := by
  have h0 : ¬t.val % 4 = 0 := by omega
  have h1 : t.val % 4 = 3 := by omega
  rw [last_out m c t h0 h1]
  refine (Pay.pay5_apply (iblk m c 3 t) _ (iblk m c 2 t) _ (iblk m c 4 t) (iblk m c 5 t) r o).trans ?_
  unfold out pre agg degree
  refine congrArg₂ (· + ·) (Finset.sum_congr rfl fun f _ => ?_) (bias_blk m c t 0 o)
  rw [sum_full m c t i ht r 0, agg_full m c t i ht r f, beta_blk m c t i 3 ht r 0, xrow_blk m c t i 3 ht r f, w_blk m c t f o]

/-! ## From the row blocks to the array -/

/-- The output window's block index at a point: (row block, 0). -/
theorem idx_out : ∀ t : Fin cfg0.N, win0_6.index t (0 : Fin 2) = t.val / 4 ∧ win0_6.index t (1 : Fin 2) = 0 :=
  (by decide +kernel : ∀ t : Fin grid0.N, win0_6.index t (0 : Fin 2) = t.val / 4 ∧ win0_6.index t (1 : Fin 2) = 0)

/-- What a last run writes back is its row block of the layer's output array. -/
theorem flushed_eq (t : Fin cfg0.N) (hf : (cfg0.win 6).flush t = true) :
    (dats m 0 c).flushed 6 t = ((cfg0.win 6).blk t).view.read (Elt Ideal) (G (aX m c) (aAdj m c) (aW m c) (aBias m c) (aBeta m c)) := by
  have hN : cfg0.N = 64 := N_0
  have hlt := t.isLt
  have h3 : t.val % 4 = 3 := (flush0_6 t).mp hf
  obtain ⟨e0, e1⟩ := idx_out t
  show (cfg0.win 6).cut (grid0.coords t) ((dats m 0 c).after 6 t) = _
  rw [after6]
  have key : ∀ y : S512x128.Idx, (outsAt m c t.val t.isLt).1 y
      = G (aX m c) (aAdj m c) (aW m c) (aBias m c) (aBeta m c) (((cfg0.win 6).blk t).view.emb y) := by
    intro y
    obtain ⟨r, o, rfl⟩ : ∃ (r : Fin 512) (o : Fin 128), y = ix2 r o := ⟨y 0, y 1, eq_ix2 y⟩
    have hemb : ((cfg0.win 6).blk t).view.emb (ix2 r o) = ix2 (rowOf ⟨t.val / 4, by omega⟩ r) o := by
      funext a; apply Fin.ext
      match a with
      | ⟨0, _⟩ => show win0_6.index t (0 : Fin 2) * 512 + 1 * r.val = 512 * (t.val / 4) + r.val; rw [e0]; omega
      | ⟨1, _⟩ => show win0_6.index t (1 : Fin 2) * 128 + 1 * o.val = o.val; rw [e1]; omega
    rw [hemb, G_ix2]
    exact out_full m c t ⟨t.val / 4, by omega⟩ (by show t.val = 4 * (t.val / 4) + 3; omega) r o
  funext y
  exact key y

theorem mem_blk (t : Fin cfg0.N) (j : S8192x128.Idx) :
    j ∈ ((cfg0.win 6).blk t).view.set ↔ ∀ a : Fin 2, win0_6.index t a * S512x128.size a ≤ (j a).val ∧ (j a).val < win0_6.index t a * S512x128.size a + S512x128.size a := by
  show j ∈ ((View.whole main_v2).slice (win0_6.rect t)).set ↔ _
  rw [View.set_slice_whole, Rect.mem_set_unit]
  exact Iff.rfl

/-- Every row lies in the row block its last run writes back. -/
theorem cover (j : S8192x128.Idx) : ∃ t : Fin cfg0.N, (cfg0.win 6).flush t = true ∧ j ∈ ((cfg0.win 6).blk t).view.set := by
  have hN : cfg0.N = 64 := N_0
  have hj0 : (j 0).val < 8192 := (j 0).isLt
  have hj1 : (j 1).val < 128 := (j 1).isLt
  refine ⟨⟨4 * ((j 0).val / 512) + 3, by omega⟩, (flush0_6 _).mpr (by show (4 * ((j 0).val / 512) + 3) % 4 = 3; omega), ?_⟩
  rw [mem_blk]
  obtain ⟨e0, e1⟩ := idx_out ⟨4 * ((j 0).val / 512) + 3, by omega⟩
  intro a
  match a with
  | ⟨0, _⟩ =>
    show win0_6.index _ (0 : Fin 2) * 512 ≤ (j 0).val ∧ (j 0).val < win0_6.index _ (0 : Fin 2) * 512 + 512
    rw [e0]; show (4 * ((j 0).val / 512) + 3) / 4 * 512 ≤ (j 0).val ∧ (j 0).val < (4 * ((j 0).val / 512) + 3) / 4 * 512 + 512
    omega
  | ⟨1, _⟩ =>
    show win0_6.index _ (1 : Fin 2) * 128 ≤ (j 1).val ∧ (j 1).val < win0_6.index _ (1 : Fin 2) * 128 + 128
    rw [e1]; omega

/-- The output array after all 64 points. -/
theorem final : (dats m 0 c).arrAt 6 cfg0.N = G (aX m c) (aAdj m c) (aW m c) (aBias m c) (aBeta m c) :=
  (dats m 0 c).arrAt_eq_of_cover 6 _ (fun t hf => flushed_eq m c t hf) (cover)

/-- The idealized kernel's run, read: the result array at the layer's function of the arguments, the arguments unchanged. -/
theorem run : θ_run defs (onTc (τ := τ) (main (F := Ideal))) ⟨m, fun _ => 0, ρ⟩ (fun r => ∀ c : Dev nD,
      r.2.mem ((c.tc : Thread nD τ).loc main_v2) = G (aX m c) (aAdj m c) (aW m c) (aBias m c) (aBeta m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (final m c), (h c).2⟩) (run_result m ρ)

end Cert.Gcn.Ker

end
-- ==== Proof.RefIsSpec.lean ====
/-
  The reference program's result, read index by index, is the layer's output function of the five argument arrays.
-/
import proofs.«160938_j23098334118224_1_alg».proof.Proof.Gen.ReferenceIdeal.Read
import proofs.«160938_j23098334118224_1_alg».proof.Proof.Spec

/-
  The reference computes the layer one whole-array operation at a time.  Read at the index (p, o), each operation
  reads its operands at one index (an elementwise operation), at the index with a unit or absent axis dropped (a
  broadcast), or along one axis (a row sum, a contraction).  Chaining these readings from the result back to the
  arguments gives, step by step, the quantities of the specification:

      the row sum of adj from the zero word, plus beta          = degree p
      the word of 1.0 divided by it                             = 1 / degree p
      the contraction adj . x plus the broadcast beta times x   = agg (p, f)
      the broadcast quotient times that                         = pre (p, f)
      the contraction with w plus the broadcast bias            = out (p, o).

  The zero word denotes 0, the unit of the sum; the word of 1.0 is kept as a word on both sides.
-/

noncomputable section

open scoped BigOperators

namespace Cert.Gcn.Ref

open Idealize.ShloMosaic Idealize.ShloMosaic.TcCoe Idealize.SL.Sem Idealize.ShloMosaic.ValueIdx
open Cert.ReferenceIdeal Cert.ReferenceIdeal.Read

/-- The degree of row p: the adjacency row summed from the zero word (which denotes 0, so it drops out), plus the
    row's self weight. -/
theorem v1_ix1 (x1 : (⟨S8192x8192, .f32⟩ : BufTy).Contents (Elt Ideal)) (x4 : (⟨S8192, .f32⟩ : BufTy).Contents (Elt Ideal))
    (p : Fin 8192) : val_main_v1 (F := Ideal) x1 x4 (ix1 p) = Cert.Gcn.degree x1 x4 p := by
  -- term k of row p's sum sits at (p, k)
  have e0 : ∀ k : Fin 8192, idx_main_v0 (ix1 p) k = ix2 p k := fun k =>
    funext fun a => match a with | ⟨0, _⟩ => rfl | ⟨1, _⟩ => rfl
  rw [val_main_v1_apply, val_main_v0_apply, val_main_cst_apply]
  simp only [e0, Ideal.addf_def, Ideal.ofBits_def, Ideal.ofBits_zero_f32, zero_add]
  rfl

/-- The reciprocal degree of row p: the exact quotient of the word of 1.0, broadcast from a scalar, by the degree. -/
theorem v3_ix1 (x1 : (⟨S8192x8192, .f32⟩ : BufTy).Contents (Elt Ideal)) (x4 : (⟨S8192, .f32⟩ : BufTy).Contents (Elt Ideal))
    (p : Fin 8192) : val_main_v3 (F := Ideal) x1 x4 (ix1 p) = Ideal.div Cert.Gcn.one (Cert.Gcn.degree x1 x4 p) := by
  rw [val_main_v3_apply, val_main_v2_apply, val_main_cst_0_apply, v1_ix1]
  rfl

/-- The aggregate at (p, f): the contraction of adjacency row p with feature column f, plus the self weight of row p
    (a vector made a column, then broadcast along the features) times the row's own feature. -/
theorem v8_ix2 (x0 : (⟨S8192x128, .f32⟩ : BufTy).Contents (Elt Ideal)) (x1 : (⟨S8192x8192, .f32⟩ : BufTy).Contents (Elt Ideal))
    (x4 : (⟨S8192, .f32⟩ : BufTy).Contents (Elt Ideal)) (p : Fin 8192) (f : Fin 128) :
    val_main_v8 (F := Ideal) x0 x1 x4 (ix2 p f) = Cert.Gcn.agg x0 x1 x4 p f := by
  -- term k of the contraction multiplies adj (p, k) by x (k, f)
  have el : ∀ k : Fin 8192, lidx_main_v4 (ix2 p f) k = ix2 p k := fun k =>
    funext fun a => match a with | ⟨0, _⟩ => rfl | ⟨1, _⟩ => rfl
  have er : ∀ k : Fin 8192, ridx_main_v4 (ix2 p f) k = ix2 k f := fun k =>
    funext fun a => match a with | ⟨0, _⟩ => rfl | ⟨1, _⟩ => rfl
  -- the two broadcasts of beta read it at p
  have e5 : idx_main_v5 (idx_main_v6 (ix2 p f)) = ix1 p :=
    funext fun a => match a with | ⟨0, _⟩ => rfl
  rw [val_main_v8_apply, val_main_v4_apply, val_main_v7_apply, val_main_v6_apply, val_main_v5_apply]
  simp only [el, er, e5, Ideal.addf_def, Ideal.mulf_def]
  rfl

/-- The normalised aggregate at (p, f): the reciprocal degree of row p (made a column, then broadcast along the
    features) times the aggregate. -/
theorem v11_ix2 (x0 : (⟨S8192x128, .f32⟩ : BufTy).Contents (Elt Ideal)) (x1 : (⟨S8192x8192, .f32⟩ : BufTy).Contents (Elt Ideal))
    (x4 : (⟨S8192, .f32⟩ : BufTy).Contents (Elt Ideal)) (p : Fin 8192) (f : Fin 128) :
    val_main_v11 (F := Ideal) x0 x1 x4 (ix2 p f) = Cert.Gcn.pre x0 x1 x4 p f := by
  -- the two broadcasts of the reciprocal degree read it at p
  have e9 : idx_main_v9 (idx_main_v10 (ix2 p f)) = ix1 p :=
    funext fun a => match a with | ⟨0, _⟩ => rfl
  rw [val_main_v11_apply, val_main_v10_apply, val_main_v9_apply, e9, v3_ix1, v8_ix2]
  rfl

/-- The reference's result array is the layer's output function of the five argument arrays: at (p, o), the
    contraction of the normalised aggregate's row p with column o of the dense transform, plus the bias at o (a vector
    made a row, then broadcast along the rows). -/
theorem value_eq (x0 : (⟨S8192x128, .f32⟩ : BufTy).Contents (Elt Ideal)) (x1 : (⟨S8192x8192, .f32⟩ : BufTy).Contents (Elt Ideal))
    (x2 : (⟨S128x128, .f32⟩ : BufTy).Contents (Elt Ideal)) (x3 : (⟨S128, .f32⟩ : BufTy).Contents (Elt Ideal))
    (x4 : (⟨S8192, .f32⟩ : BufTy).Contents (Elt Ideal)) :
    val_main_v15 (F := Ideal) x0 x1 x2 x3 x4 = Cert.Gcn.G x0 x1 x2 x3 x4 := by
  funext i
  obtain ⟨p, o, rfl⟩ : ∃ (p : Fin 8192) (o : Fin 128), i = ix2 p o := ⟨i 0, i 1, eq_ix2 i⟩
  -- term k of the contraction multiplies pre (p, k) by w (k, o)
  have el : ∀ k : Fin 128, lidx_main_v12 (ix2 p o) k = ix2 p k := fun k =>
    funext fun a => match a with | ⟨0, _⟩ => rfl | ⟨1, _⟩ => rfl
  have er : ∀ k : Fin 128, ridx_main_v12 (ix2 p o) k = ix2 k o := fun k =>
    funext fun a => match a with | ⟨0, _⟩ => rfl | ⟨1, _⟩ => rfl
  -- the two broadcasts of the bias read it at o
  have e13 : idx_main_v13 (idx_main_v14 (ix2 p o)) = ix1 o :=
    funext fun a => match a with | ⟨0, _⟩ => rfl
  rw [val_main_v15_apply, val_main_v12_apply, val_main_v14_apply, val_main_v13_apply, e13, Cert.Gcn.G_ix2]
  simp only [el, er, v11_ix2, Ideal.addf_def]
  rfl

/-- Every weakly fair execution of the reference terminates with its result buffer holding the layer's output
    function of the five argument arrays' launch contents, and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread nD τ).loc main_v15) =
        Cert.Gcn.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run Cert.ReferenceIdeal.defs _ _).mono (fun _ h c => ⟨(h c).1.trans (by
      rw [val_main_v15_eq]
      exact value_eq _ _ _ _ _), (h c).2⟩)
    (Cert.ReferenceIdeal.Value.run (F := Ideal) m ρ)

end Cert.Gcn.Ref

end
-- ==== Proof.lean ====
/-
  The certificate of the graph-convolution layer's kernel against its jnp reference.

  The layer:  out = ((1 / (rowsum(adj) + beta)) * (adj @ x + beta * x)) @ w + bias  over 8192 nodes and 128 features.
  The kernel visits 16 row blocks x 4 runs of neighbours, keeping the partial aggregate and the partial row sums in two
  accumulators between the runs of a row block, and finishes and stores a row block at its last run; the reference takes
  every sum in one piece.  On the extended reals a finite sum may be regrouped freely, so both compute ONE function of
  the five argument arrays (Proof/Spec.lean): the reference by reading its operations index by index
  (Proof/RefIsSpec.lean), the kernel by following the accumulators through a row block's four runs
  (Proof/KernelIsSpec.lean).  No finiteness of the inputs is used.

  The three frames: each program runs to the end, faults nowhere and leaves its argument arrays unchanged — for the
  kernel (as printed, and idealized) by the launch of its one region with the feature array read through two windows
  that share it (Proof/BitsLaunch.lean, Proof/IdealLaunch.lean), for the reference by its run.  The idealization
  rewrote nothing, so it preserves the printed kernel trivially.
-/
import proofs.«160938_j23098334118224_1_alg».proof.Defs
import proofs.«160938_j23098334118224_1_alg».proof.Proof.Gen.Kernel
import proofs.«160938_j23098334118224_1_alg».proof.Proof.Gen.KernelIdeal
import proofs.«160938_j23098334118224_1_alg».proof.Proof.Gen.ReferenceIdeal
import proofs.«160938_j23098334118224_1_alg».proof.Proof.Gen.Pre_finite_inputs
import proofs.«160938_j23098334118224_1_alg».proof.Proof.Gen.ReferenceIdeal.Run
import proofs.«160938_j23098334118224_1_alg».proof.Proof.BitsLaunch
import proofs.«160938_j23098334118224_1_alg».proof.Proof.IdealLaunch
import proofs.«160938_j23098334118224_1_alg».proof.Proof.KernelIsSpec
import proofs.«160938_j23098334118224_1_alg».proof.Proof.RefIsSpec
import Idealize.ShloMosaic.Adequacy
import Idealize.ShloMosaic.Init

noncomputable section

namespace Cert.Proof

open Idealize.ShloMosaic Idealize.ShloMosaic.TcCoe Idealize.SL.Sem

/-- The printed kernel runs, faults nowhere, and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five arguments both programs end with the layer's output function of those
    arguments in their result arrays. -/
theorem algebraic : Cert.algebraic_KernelIdeal_ReferenceIdeal := by
  intro m ρ m' ρ' _ hagree
  refine ⟨fun c => Cert.Gcn.G (Cert.Gcn.Ker.aX m c) (Cert.Gcn.Ker.aAdj m c) (Cert.Gcn.Ker.aW m c) (Cert.Gcn.Ker.aBias m c) (Cert.Gcn.Ker.aBeta m c),
    Cert.Gcn.Ker.run m ρ, ?_⟩
  refine (θ_run Cert.ReferenceIdeal.defs _ _).mono (fun _ h c => ⟨(h c).1.trans ?_, (h c).2⟩) (Cert.Gcn.Ref.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
